-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S64x128 : Shape := ⟨2, ![64, 128]⟩
abbrev S64 : Shape := ⟨1, ![64]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part2 {F : FTy → Type} [FloatOps F] (main_v28 : IVec S_ 1) (main_v31 : FVec F S10000 .f32) (main_v32 : FVec F S10000 .f32) : IVec S_ 1 :=
  let main_v33 : IVec S10000 1 := cmpf .une main_v31 main_v32
  let main_c_13 : IVec S_ 1 := constantI S_ 1 1#1
  let main_v34 : IVec S_ 1 := (fun x v => Host.reduce IntOp.andi x v reducesTo_S10000_S_d0 h_S_) main_v33 main_c_13
  let main_v35 : IVec S_ 1 := andi main_v28 main_v34
  main_v35

def fn_part1 {F : FTy → Type} [FloatOps F] (main_arg1 : FVec F S10000x10000 .f32) (main_arg4 : FVec F S64x128 .f32) (main_arg5 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S10000 .f32 := (fun x v => Host.reduceAdd x v reducesTo_S10000x10000_S10000_d1 h_S_) main_arg1 main_cst_10
  let main_cst_11 : FVec F S_ .f32 := constant S_ .f32 0x3F800000#32
  let main_v30 : FVec F S10000 .f32 := broadcastInDim S10000 ![] bcast_S_S10000 main_cst_11
  let main_v31 : FVec F S10000 .f32 := addf main_v29 main_v30
  let main_cst_12 : FVec F S_ .f32 := constant S_ .f32 0x00000000#32
  let main_v32 : FVec F S10000 .f32 := broadcastInDim S10000 ![] bcast_S_S10000 main_cst_12
  fn_part2 (F := F) main_v28 main_v31 main_v32

def fn {F : FTy → Type} [FloatOps F] (main_arg0 : FVec F S10000x128 .f32) (main_arg1 : FVec F S10000x10000 .f32) (main_arg2 : FVec F S128x256 .f32) (main_arg3 : FVec F S128x256 .f32) (main_arg4 : FVec F S64x128 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg4 main_arg5 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S64x128 : Shape := ⟨2, ![64, 128]⟩
abbrev S64 : Shape := ⟨1, ![64]⟩
abbrev S128x128 : Shape := ⟨2, ![128, 128]⟩
abbrev S128x64 : Shape := ⟨2, ![128, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩
abbrev S400x128 : Shape := ⟨2, ![400, 128]⟩

abbrev nBuf : Space → Nat
  | .hbm => 17
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128x256, .f32⟩
  | .hbm, ⟨4, _⟩ => ⟨S64x128, .f32⟩
  | .hbm, ⟨5, _⟩ => ⟨S64, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x64, .f32⟩
  | .hbm, ⟨15, _⟩ => ⟨S1x64, .f32⟩
  | .hbm, ⟨16, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x64, .f32⟩
  | .local _ .vmem, ⟨8, _⟩ => ⟨S1x64, .f32⟩
  | .local _ .vmem, ⟨9, _⟩ => ⟨S400x64, .f32⟩
  | .local _ .vmem, ⟨10, _⟩ => ⟨S400x64, .f32⟩
  | .local _ .vmem, ⟨11, _⟩ => ⟨S10000x128, .f32⟩
  | .local _ .vmem, ⟨12, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_off1 (i : grid0.Coords) : Fin 2 → Nat :=
  let arg1 : BitVec 32 := BitVec.ofNat 32 (i 1).val
  let c400_i32 : BitVec 32 := 400#32
  let v15 : BitVec 32 := Scalar.muli arg1 c400_i32
  let v16 : Index := Scalar.indexCast v15
  let c0_5 : Index := 0#32
  ![v16.toNat, 0]
def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_2 : BitVec 32 := 0#32
  let v6 : BitVec 1 := Scalar.cmpi .ne v5 c0_i32_2
  v6

def k0_off2 (i : grid0.Coords) : Fin 2 → Nat :=
  let arg1 : BitVec 32 := BitVec.ofNat 32 (i 1).val
  let c400_i32 : BitVec 32 := 400#32
  let v7 : BitVec 32 := Scalar.muli arg1 c400_i32
  let v8 : Index := Scalar.indexCast v7
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S64x128_S128x64_1_0 : S64x128.Transposes [1, 0] S128x64
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  shapeCasts_S400x1_S400x1 : S400x1.ShapeCasts S400x1
  broadcasts_S400x1_S400x128 : S400x1.Broadcasts S400x128
  h_S400x128 : 0 < S400x128.numel
  shapeCasts_S400x128_S400x128 : S400x128.ShapeCasts S400x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  hrank0 : 0 < grid0.rank
  k0_off1_inb : ∀ i : grid0.Coords, ∀ (k0_h1 : k0_cond1 i = 1#1), ∀ a, (k0_off1 i) a + S400x128.size a ≤ S10000x128.size a
  k0_off2_inb : ∀ i : grid0.Coords, ∀ (k0_h2 : k0_cond2 i = 1#1), ∀ a, (k0_off2 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x64.size a ≤ S10000x64.size a
  hwx0_8 : ∀ i : grid0.Coords, EltTy.bits .f32 = 32 ∨ (Rect.block (s := S10000x64) S400x64.size (cc0_transform_8 i) (hinb0_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v9) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S400x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S64x128 : Shape := ⟨2, ![64, 128]⟩
abbrev S64 : Shape := ⟨1, ![64]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩
abbrev S128x64 : Shape := ⟨2, ![128, 64]⟩
abbrev S10000x64 : Shape := ⟨2, ![10000, 64]⟩
abbrev S1x64 : Shape := ⟨2, ![1, 64]⟩

abbrev nBuf : Space → Nat
  | .hbm => 56
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128x256, .f32⟩
  | .hbm, ⟨4, _⟩ => ⟨S64x128, .f32⟩
  | .hbm, ⟨5, _⟩ => ⟨S64, .f32⟩
  | .hbm, ⟨6, _⟩ => ⟨S10000x128, .f32⟩
  | .hbm, ⟨7, _⟩ => ⟨S_, .f32⟩
  | .hbm, ⟨8, _⟩ => ⟨S10000, .f32⟩
  | .hbm, ⟨9, _⟩ => ⟨S10000x1, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x256, .f32⟩
  | .hbm, ⟨16, _⟩ => ⟨S256x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S_, .f32⟩
  | .hbm, ⟨26, _⟩ => ⟨S10000x1, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S10000x256, .f32⟩
  | .hbm, ⟨31, _⟩ => ⟨S256x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | .hbm, ⟨36, _⟩ => ⟨S128x64, .f32⟩
  | .hbm, ⟨37, _⟩ => ⟨S10000x64, .f32⟩
  | .hbm, ⟨38, _⟩ => ⟨S1x64, .f32⟩
  | .hbm, ⟨39, _⟩ => ⟨S10000x64, .f32⟩
  | .hbm, ⟨40, _⟩ => ⟨S10000x64, .f32⟩
  | .hbm, ⟨41, _⟩ => ⟨S_, .f32⟩
  | .hbm, ⟨42, _⟩ => ⟨S10000, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S10000x1, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S10000x1, .f32⟩
  | .hbm, ⟨54, _⟩ => ⟨S10000x64, .f32⟩
  | .hbm, ⟨55, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_call2_cst_0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_cst_1 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_v27 : Ref sig .tc := ⟨.hbm, 55, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  bcast_S_S10000 : S_.BroadcastsInDim S10000 (![] : Fin 0 → Fin S10000.rank)
  bcast_S10000x1_S10000x64_0_1 : S10000x1.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.KB.Common.lean ====
/-
  What the kernel body's runs are stated over. The body has two branches on the first grid coordinate:
  at the first 25 points (phase one) it fills rows 400·i … 400·i + 399 of its two scratch arrays, at the last
  25 points (phase two) it reads them back and writes the output block. Here: the two branch conditions
  decided over the grid, where the output window is idle and not written back, the staging and scratch
  memrefs by name, and the region's invariant with the two scratch arrays made explicit.
-/
import proofs.«146354_g81527069213097_cont_9to1_m_921_19_alg».proof.Proof.Gen.Kernel.Frame
import proofs.«146354_g81527069213097_cont_9to1_m_921_19_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the first grid coordinate is 0. -/
abbrev condA (i : grid0.Coords) : Prop := k0_cond1 i = 1#1
/-- It holds at the points before point 25. -/
theorem hcondA : ∀ t : Fin cfg0.N, condA (grid0.coords t) ↔ t.val < 25 :=
  (by decide +kernel : ∀ t : Fin grid0.N, condA (grid0.coords t) ↔ t.val < 25)

/-- The second branch's condition: the first grid coordinate is 1. -/
abbrev condB (i : grid0.Coords) : Prop := k0_cond2 i = 1#1
/-- It holds at the points from point 25 on. -/
theorem hcondB : ∀ t : Fin cfg0.N, condB (grid0.coords t) ↔ 25 ≤ t.val :=
  (by decide +kernel : ∀ t : Fin grid0.N, condB (grid0.coords t) ↔ 25 ≤ t.val)

/-- The inputs' windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- In phase one the output window is idle: the body stores nothing into it, -/
theorem idle8_A : ∀ t : Fin cfg0.N, t.val < 25 → cfg0.idle 8 (grid0.coords t) = true := by decide +kernel
/-- and the pipeline does not write it back there. -/
theorem noFlush8_A : ∀ t : Fin cfg0.N, t.val < 25 → (cfg0.win 8).flush t = false := by decide +kernel
/-- In phase two it is live. -/
theorem live8_B : ∀ t : Fin cfg0.N, 25 ≤ t.val → cfg0.idle 8 (grid0.coords t) = false := by decide +kernel

/-- Each window's current staging memref at point t, as the pipeline passes it to the body, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x64 .f32 := win0_8.stage (cfg0.slots t 8)
abbrev hs8 (t : Fin cfg0.N) : (ms8 t).IsWhole := hstage0_8 ((cfg0.slots t 8).cast nbuf0_8)
/-- The two scratch arrays: the hidden layer (scH) and the reciprocals (scI), whole buffers of the kernel's own. -/
abbrev scH : Memref sig .tc .vmem S10000x128 .f32 := Memref.whole cc0_scratch0
abbrev scI : Memref sig .tc .vmem S10000x128 .f32 := Memref.whole cc0_scratch1
/-- One staging buffer of the output window, through which its contents are stated. -/
abbrev VO8 : View sig .tc .vmem S400x64 .f32 := (Memref.whole cc0_stg8_0 : Memref sig .tc .vmem S400x64 .f32).view

/-- What the launch hands the region: the two scratch arrays at some contents each, and the generator register. -/
theorem PhiA_eq (c : Dev nD) :
    (Pipeline.ΦA spec0 c : sProp 𝕄)
      = iprop(iprop((∃ d, owns (c : Thread nD τ) scH fullShare d) ∗ (∃ d, owns (c : Thread nD τ) scI fullShare d)) ∗ (∃ r, prngReg c r)) := by
  unfold Pipeline.ΦA; rw [scopedRest0_eq]; simp only [scH, scI, owns_whole]; try rfl

end Cert.Kernel.Hand

end
-- ==== Proof.KB.RunA.lean ====
/-
  The body in phase one (first grid coordinate 0), on any whole staging memrefs: the inputs at named contents, the
  output's buffer at any contents and handed back untouched, the two scratch arrays at named contents. It runs to
  the end leaving in each scratch array what it held with one slice overwritten: the pieces (a rectangle of 400 rows
  and the payload stored through it) are found by running the body, and are this definition's first two components.
-/
import proofs.«146354_g81527069213097_cont_9to1_m_921_19_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase one's run: the pieces stored into the hidden-layer scratch (first) and into the reciprocals' scratch
    (second), with the proof that the body, from the memrefs at those contents, reaches any continuation that
    takes them back with the pieces written. -/
noncomputable def runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x128 .f32) (harg11 : arg11.IsWhole) (arg12 : Memref sig .tc .vmem S10000x128 .f32) (harg12 : arg12.IsWhole) (hcA : condA i) (hcB : ¬condB i)
    (x0 : Vec F S400x10000 .f32) (x1 : Vec F S10000x128 .f32) (x2 : Vec F S128x128 .f32) (x3 : Vec F S128x128 .f32) (x4 : Vec F S128x128 .f32) (x5 : Vec F S128x128 .f32) (x6 : Vec F S128x64 .f32) (x7 : Vec F S1x64 .f32) :
    Σ' (LH : List (View.Piece (Elt F) S10000x128 .f32)), { LI : List (View.Piece (Elt F) S10000x128 .f32) //
      ∀ (xo : Vec F S400x64 .f32) (xh xi : Vec F S10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xh ∗ owns (c : Thread nD τ) arg12 fullShare xi
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
                ∗ (arg11.view.loc (c : Thread nD τ) ↦[arg11.view.set]{fullShare} arg11.view.writes (Elt F) (harg11.unread xh) LH)
                ∗ (arg12.view.loc (c : Thread nD τ) ↦[arg12.view.set]{fullShare} arg12.view.writes (Elt F) (harg12.unread xi) LI)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun xo xh xi E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexact HS0
    iexact HS1

end Cert.Kernel.Hand

end
-- ==== Proof.KB.RunB.lean ====
/-
  The body in phase two (first grid coordinate 1), on any whole staging memrefs: the inputs and the two scratch
  arrays at named contents, the output's buffer at any contents. It runs to the end leaving the scratch arrays as
  they were and the output's buffer with one whole-block store; the piece is found by running the body.
-/
import proofs.«146354_g81527069213097_cont_9to1_m_921_19_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase two's run: the pieces stored into the output's staging buffer, with the proof that the body, from the memrefs
    at those contents, reaches any continuation that takes them back with the pieces written. -/
noncomputable def runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x128 .f32) (harg11 : arg11.IsWhole) (arg12 : Memref sig .tc .vmem S10000x128 .f32) (harg12 : arg12.IsWhole) (hcA : ¬condA i) (hcB : condB i)
    (x0 : Vec F S400x10000 .f32) (x1 : Vec F S10000x128 .f32) (x2 : Vec F S128x128 .f32) (x3 : Vec F S128x128 .f32) (x4 : Vec F S128x128 .f32) (x5 : Vec F S128x128 .f32) (x6 : Vec F S128x64 .f32) (x7 : Vec F S1x64 .f32) (xh xi : Vec F S10000x128 .f32) :
    { LO : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xh ∗ owns (c : Thread nD τ) arg12 fullShare xi
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f LO)
                ∗ owns (c : Thread nD τ) arg11 fullShare xh ∗ owns (c : Thread nD τ) arg12 fullShare xi) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    iexists _; isplitr; · ipureintro; exact harg12.read_unread _
    iexact HS1

end Cert.Kernel.Hand

end
-- ==== Proof.KB.Frame.lean ====
/-
  The region's run with the two scratch arrays followed point by point.

  Phase one fills each scratch array one slice of 400 rows per point over whatever it held before the region;
  after n points of phase one it holds those prior contents with the first n points' pieces written over them,
  and after all 25 every row has been written, so what it holds no longer depends on the prior contents.
  Phase two reads the two arrays back at those contents and leaves them as they are. The region's invariant
  binds the prior contents; the output window's block at a point of phase two is named through the run of that
  point at the arrays' final contents, and is idle (not written back) throughout phase one.
-/
import proofs.«146354_g81527069213097_cont_9to1_m_921_19_alg».proof.Proof.KB.RunA
import proofs.«146354_g81527069213097_cont_9to1_m_921_19_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- In phase one the slice's offsets are 400·i rows down, column 0. -/
theorem hoffA : ∀ t : Fin cfg0.N, t.val < 25 → k0_off1 (grid0.coords t) = ![400 * t.val, 0] := by
  decide +kernel

/-- Phase one's run at grid point t: at the point's staging memrefs and input blocks, on the two scratch arrays. -/
abbrev runAt (c : Dev nD) (t : Fin cfg0.N) (ht : t.val < 25) :=
  runA (F := F) c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scH (Memref.isWhole_whole _) scI (Memref.isWhole_whole _)
    ((hcondA t).mpr ht) (fun h => absurd ((hcondB t).mp h) (by omega))
    (iblk m c 0 t) (iblk m c 1 t) (iblk m c 2 t) (iblk m c 3 t) (iblk m c 4 t) (iblk m c 5 t) (iblk m c 6 t) (iblk m c 7 t)

/-- The pieces the first n points have stored into the hidden-layer scratch, the last first (none after point 24). -/
def piecesH (c : Dev nD) : ℕ → List (View.Piece (Elt F) S10000x128 .f32)
  | 0 => []
  | n + 1 => if h : n < 25 then (runAt m c ⟨n, by have := N50; omega⟩ h).1 ++ piecesH c n else piecesH c n

/-- The same for the reciprocals' scratch. -/
def piecesI (c : Dev nD) : ℕ → List (View.Piece (Elt F) S10000x128 .f32)
  | 0 => []
  | n + 1 => if h : n < 25 then (runAt m c ⟨n, by have := N50; omega⟩ h).2.1 ++ piecesI c n else piecesI c n

theorem piecesH_succ_lt (c : Dev nD) (t : Fin cfg0.N) (ht : t.val < 25) :
    piecesH m c (t.val + 1) = (runAt m c t ht).1 ++ piecesH m c t.val := by
  show (if h : t.val < 25 then _ else _) = _
  rw [dif_pos ht]

theorem piecesI_succ_lt (c : Dev nD) (t : Fin cfg0.N) (ht : t.val < 25) :
    piecesI m c (t.val + 1) = (runAt m c t ht).2.1 ++ piecesI m c t.val := by
  show (if h : t.val < 25 then _ else _) = _
  rw [dif_pos ht]

theorem piecesH_succ_ge (c : Dev nD) (n : ℕ) (hn : 25 ≤ n) : piecesH m c (n + 1) = piecesH m c n := by
  show (if h : n < 25 then _ else _) = _
  rw [dif_neg (by omega)]

theorem piecesI_succ_ge (c : Dev nD) (n : ℕ) (hn : 25 ≤ n) : piecesI m c (n + 1) = piecesI m c n := by
  show (if h : n < 25 then _ else _) = _
  rw [dif_neg (by omega)]

theorem piecesH_ge (c : Dev nD) (n : ℕ) (hn : 25 ≤ n) : piecesH m c n = piecesH m c 25 := by
  induction n, hn using Nat.le_induction with
  | base => rfl
  | succ n hn ih => rw [piecesH_succ_ge m c n hn, ih]

theorem piecesI_ge (c : Dev nD) (n : ℕ) (hn : 25 ≤ n) : piecesI m c n = piecesI m c 25 := by
  induction n, hn using Nat.le_induction with
  | base => rfl
  | succ n hn ih => rw [piecesI_succ_ge m c n hn, ih]

/-- The piece point t of phase one stores into the hidden-layer scratch covers rows 400·t … 400·t + 399. -/
theorem mem_pieceH (c : Dev nD) (t : Fin cfg0.N) (ht : t.val < 25) (y : S10000x128.Idx)
    (hy : 400 * t.val ≤ (y 0).val ∧ (y 0).val < 400 * t.val + 400) : ∃ p ∈ (runAt m c t ht).1, y ∈ p.1.set := by
  unfold runAt runA
  dsimp only
  refine ⟨_, List.mem_singleton.mpr rfl, ?_⟩
  dsimp only
  rw [Rect.mem_set_unit]
  intro a
  have h1 : (y 1).val < 128 := (y 1).isLt
  have e0 : k0_off1 (grid0.coords t) 0 = 400 * t.val := by rw [hoffA t ht]; rfl
  have e1 : k0_off1 (grid0.coords t) 1 = 0 := by rw [hoffA t ht]; rfl
  match a with
  | ⟨0, _⟩ => show k0_off1 (grid0.coords t) 0 ≤ (y 0).val ∧ (y 0).val < k0_off1 (grid0.coords t) 0 + 400; rw [e0]; exact hy
  | ⟨1, _⟩ => show k0_off1 (grid0.coords t) 1 ≤ (y 1).val ∧ (y 1).val < k0_off1 (grid0.coords t) 1 + 128; rw [e1]; omega

theorem mem_pieceI (c : Dev nD) (t : Fin cfg0.N) (ht : t.val < 25) (y : S10000x128.Idx)
    (hy : 400 * t.val ≤ (y 0).val ∧ (y 0).val < 400 * t.val + 400) : ∃ p ∈ (runAt m c t ht).2.1, y ∈ p.1.set := by
  unfold runAt runA
  dsimp only
  refine ⟨_, List.mem_singleton.mpr rfl, ?_⟩
  dsimp only
  rw [Rect.mem_set_unit]
  intro a
  have h1 : (y 1).val < 128 := (y 1).isLt
  have e0 : k0_off1 (grid0.coords t) 0 = 400 * t.val := by rw [hoffA t ht]; rfl
  have e1 : k0_off1 (grid0.coords t) 1 = 0 := by rw [hoffA t ht]; rfl
  match a with
  | ⟨0, _⟩ => show k0_off1 (grid0.coords t) 0 ≤ (y 0).val ∧ (y 0).val < k0_off1 (grid0.coords t) 0 + 400; rw [e0]; exact hy
  | ⟨1, _⟩ => show k0_off1 (grid0.coords t) 1 ≤ (y 1).val ∧ (y 1).val < k0_off1 (grid0.coords t) 1 + 128; rw [e1]; omega

/-- After n points of phase one the rows below 400·n are covered. -/
theorem coverH_upto (c : Dev nD) : ∀ n : ℕ, n ≤ 25 → ∀ y : S10000x128.Idx, (y 0).val < 400 * n → ∃ p ∈ piecesH m c n, y ∈ p.1.set
  | 0, _, y, hy => absurd hy (by omega)
  | n + 1, hn, y, hy => by
    have hlt : n < 25 := by omega
    have e := piecesH_succ_lt m c ⟨n, by have := N50; omega⟩ hlt
    dsimp only at e
    rw [e]
    by_cases h : (y 0).val < 400 * n
    · obtain ⟨p, hp, hm⟩ := coverH_upto c n (by omega) y h
      exact ⟨p, List.mem_append_right _ hp, hm⟩
    · obtain ⟨p, hp, hm⟩ := mem_pieceH m c ⟨n, by have := N50; omega⟩ hlt y ⟨by dsimp only; omega, by dsimp only; omega⟩
      exact ⟨p, List.mem_append_left _ hp, hm⟩

theorem coverI_upto (c : Dev nD) : ∀ n : ℕ, n ≤ 25 → ∀ y : S10000x128.Idx, (y 0).val < 400 * n → ∃ p ∈ piecesI m c n, y ∈ p.1.set
  | 0, _, y, hy => absurd hy (by omega)
  | n + 1, hn, y, hy => by
    have hlt : n < 25 := by omega
    have e := piecesI_succ_lt m c ⟨n, by have := N50; omega⟩ hlt
    dsimp only at e
    rw [e]
    by_cases h : (y 0).val < 400 * n
    · obtain ⟨p, hp, hm⟩ := coverI_upto c n (by omega) y h
      exact ⟨p, List.mem_append_right _ hp, hm⟩
    · obtain ⟨p, hp, hm⟩ := mem_pieceI m c ⟨n, by have := N50; omega⟩ hlt y ⟨by dsimp only; omega, by dsimp only; omega⟩
      exact ⟨p, List.mem_append_left _ hp, hm⟩

/-- After phase one every element of the hidden-layer scratch has been written. -/
theorem coverH (c : Dev nD) (y : S10000x128.Idx) : ∃ p ∈ piecesH m c 25, y ∈ p.1.set :=
  coverH_upto m c 25 le_rfl y (by have : (y 0).val < 10000 := (y 0).isLt; omega)

theorem coverI (c : Dev nD) (y : S10000x128.Idx) : ∃ p ∈ piecesI m c 25, y ∈ p.1.set :=
  coverI_upto m c 25 le_rfl y (by have : (y 0).val < 10000 := (y 0).isLt; omega)

/-- What the hidden-layer scratch holds after phase one, whatever it held before. -/
def XH (c : Dev nD) : Vec F S10000x128 .f32 :=
  scH.view.read (Elt F) (scH.view.writes (Elt F) scH.view.junk (piecesH m c 25))

/-- What the reciprocals' scratch holds after phase one, whatever it held before. -/
def XI (c : Dev nD) : Vec F S10000x128 .f32 :=
  scI.view.read (Elt F) (scI.view.writes (Elt F) scI.view.junk (piecesI m c 25))

theorem readH_final (c : Dev nD) (d : scH.view.ty.Contents (Elt F)) :
    scH.view.read (Elt F) (scH.view.writes (Elt F) d (piecesH m c 25)) = XH m c :=
  View.read_writes_of_cover _ _ _ _ _ (coverH m c)

theorem readI_final (c : Dev nD) (d : scI.view.ty.Contents (Elt F)) :
    scI.view.read (Elt F) (scI.view.writes (Elt F) d (piecesI m c 25)) = XI m c :=
  View.read_writes_of_cover _ _ _ _ _ (coverI m c)

/-- Phase two's run at grid point t: at the point's staging memrefs and input blocks, the scratch arrays at their final contents. -/
abbrev runBt (c : Dev nD) (t : Fin cfg0.N) (ht : 25 ≤ t.val) :=
  runB (F := F) c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scH (Memref.isWhole_whole _) scI (Memref.isWhole_whole _)
    (fun h => absurd ((hcondA t).mp h) (by omega)) ((hcondB t).mpr ht)
    (iblk m c 0 t) (iblk m c 1 t) (iblk m c 2 t) (iblk m c 3 t) (iblk m c 4 t) (iblk m c 5 t) (iblk m c 6 t) (iblk m c 7 t) (XH m c) (XI m c)

/-- Phase two's one store covers the output's block. -/
theorem coverO (c : Dev nD) (t : Fin cfg0.N) (ht : 25 ≤ t.val) (y : S400x64.Idx) : ∃ pc ∈ (runBt m c t ht).1, y ∈ pc.1.set :=
  View.cover_of_tiledL (runBt m c t ht).1 S400x64.size (by sl_kernel_rfl) y

/-- What the output's staging buffer holds after the body at point t: in phase two the run's piece read back; in phase
    one nothing is stored (the window is idle there and this value is never consulted). -/
def outB (c : Dev nD) (t : Fin cfg0.N) : Vec F S400x64 .f32 :=
  if ht : 25 ≤ t.val then VO8.read (Elt F) (VO8.writes (Elt F) VO8.junk (runBt m c t ht).1) else VO8.read (Elt F) VO8.junk

theorem outB_B (c : Dev nD) (t : Fin cfg0.N) (ht : 25 ≤ t.val) :
    outB m c t = VO8.read (Elt F) (VO8.writes (Elt F) VO8.junk (runBt m c t ht).1) := dif_pos ht

/-- The region's invariant before position n: each scratch array at some prior contents with the first n points' pieces
    written, and the generator register at some state. -/
def PhiT (c : Dev nD) (n : ℕ) : sProp 𝕄 :=
  iprop(∃ dH, ∃ dI, owns (c : Thread nD τ) scH fullShare (scH.view.read (Elt F) (scH.view.writes (Elt F) dH (piecesH m c n)))
    ∗ owns (c : Thread nD τ) scI fullShare (scI.view.read (Elt F) (scI.view.writes (Elt F) dI (piecesI m c n)))
    ∗ (∃ r, prngReg c r))

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outB m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outB m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
/-- The body at any point. In phase one the invariant's scratch contents go in, the run's pieces come out written
    over them, which is the invariant one point later; the idle output's buffer goes in and out untouched. In phase
    two the scratch arrays hold their final contents whatever they held before the region (every row has been
    written), the run applies at those, and the output's buffer comes back with the run's piece. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [show (dats m 0 c).leavesExact 7 t = owns (c : Thread nD τ) (ms7 t) fullShare ((dats m 0 c).after 7 t) from by
    unfold Dat.leavesExact; rw [live7 t], after_7]
  have hN : t.val < 50 := lt_of_lt_of_eq t.isLt N50
  unfold PhiT
  by_cases hA : t.val < 25
  · rw [Dat.leavesExact_idle (dats m 0 c) 8 t (idle8_A t hA) (noFlush8_A t hA)]
    rw [piecesH_succ_lt m c t hA, piecesI_succ_lt m c t hA]
    iintro ⟨⟨%dH, %dI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t hA).2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · iexists dH, dI
      rw [Memref.IsWhole.unread_read, Memref.IsWhole.unread_read, ← View.writes_append, ← View.writes_append]
      isplitl [HS0]
      · unfold owns; iexists _; isplitr
        swap; · iexact HS0
        ipureintro; rfl
      isplitl [HS1]
      · unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hB : 25 ≤ t.val := by omega
    rw [show (dats m 0 c).leavesExact 8 t = owns (c : Thread nD τ) (ms8 t) fullShare ((dats m 0 c).after 8 t) from by
      unfold Dat.leavesExact; rw [live8_B t hB], after_8, outB_B m c t hB]
    rw [piecesH_ge m c t.val hB, piecesI_ge m c t.val hB, piecesH_ge m c (t.val + 1) (by omega), piecesI_ge m c (t.val + 1) (by omega)]
    iintro ⟨⟨%dH, %dI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [readH_final m c dH, readI_final m c dI]
    iapply ((runBt m c t hB).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · iexists scH.view.junk, scI.view.junk
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverO m c t hB)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing written yet. -/
theorem hin (c : Dev nD) : Pipeline.ΦA spec0 c ⊢ (dats m 0 c).Φ 0 := by
  rw [show (dats m 0 c).Φ 0 = PhiT m c 0 from rfl, PhiA_eq]
  unfold PhiT owns
  iintro ⟨⟨⟨%dH, %fH, %hH, HS0⟩, ⟨%dI, %fI, %hI, HS1⟩⟩, Hg⟩
  iexists fH, fI
  isplitl [HS0]
  · iexists fH; isplitr
    swap; · iexact HS0
    ipureintro; rfl
  isplitl [HS1]
  · iexists fI; isplitr
    swap; · iexact HS1
    ipureintro; rfl
  iexact Hg

/-- After the last point the invariant gives the scratch arrays back at whatever they hold. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨%dH, %dI, HS0, HS1, Hg⟩
  isplitl [HS0 HS1]
  · isplitl [HS0]
    · iexists _; iexact HS0
    iexists _; iexact HS1
  iexact Hg

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Common.lean ====
/-
  What the kernel body's runs are stated over. The body has two branches on the first grid coordinate:
  at the first 25 points (phase one) it fills rows 400·i … 400·i + 399 of its two scratch arrays, at the last
  25 points (phase two) it reads them back and writes the output block. Here: the two branch conditions
  decided over the grid, where the output window is idle and not written back, the staging and scratch
  memrefs by name, and the region's invariant with the two scratch arrays made explicit.
-/
import proofs.«146354_g81527069213097_cont_9to1_m_921_19_alg».proof.Proof.Gen.KernelIdeal.Frame
import proofs.«146354_g81527069213097_cont_9to1_m_921_19_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the first grid coordinate is 0. -/
abbrev condA (i : grid0.Coords) : Prop := k0_cond1 i = 1#1
/-- It holds at the points before point 25. -/
theorem hcondA : ∀ t : Fin cfg0.N, condA (grid0.coords t) ↔ t.val < 25 :=
  (by decide +kernel : ∀ t : Fin grid0.N, condA (grid0.coords t) ↔ t.val < 25)

/-- The second branch's condition: the first grid coordinate is 1. -/
abbrev condB (i : grid0.Coords) : Prop := k0_cond2 i = 1#1
/-- It holds at the points from point 25 on. -/
theorem hcondB : ∀ t : Fin cfg0.N, condB (grid0.coords t) ↔ 25 ≤ t.val :=
  (by decide +kernel : ∀ t : Fin grid0.N, condB (grid0.coords t) ↔ 25 ≤ t.val)

/-- The inputs' windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- In phase one the output window is idle: the body stores nothing into it, -/
theorem idle8_A : ∀ t : Fin cfg0.N, t.val < 25 → cfg0.idle 8 (grid0.coords t) = true := by decide +kernel
/-- and the pipeline does not write it back there. -/
theorem noFlush8_A : ∀ t : Fin cfg0.N, t.val < 25 → (cfg0.win 8).flush t = false := by decide +kernel
/-- In phase two it is live. -/
theorem live8_B : ∀ t : Fin cfg0.N, 25 ≤ t.val → cfg0.idle 8 (grid0.coords t) = false := by decide +kernel

/-- Each window's current staging memref at point t, as the pipeline passes it to the body, and its wholeness. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x64 .f32 := win0_8.stage (cfg0.slots t 8)
abbrev hs8 (t : Fin cfg0.N) : (ms8 t).IsWhole := hstage0_8 ((cfg0.slots t 8).cast nbuf0_8)
/-- The two scratch arrays: the hidden layer (scH) and the reciprocals (scI), whole buffers of the kernel's own. -/
abbrev scH : Memref sig .tc .vmem S10000x128 .f32 := Memref.whole cc0_scratch0
abbrev scI : Memref sig .tc .vmem S10000x128 .f32 := Memref.whole cc0_scratch1
/-- One staging buffer of the output window, through which its contents are stated. -/
abbrev VO8 : View sig .tc .vmem S400x64 .f32 := (Memref.whole cc0_stg8_0 : Memref sig .tc .vmem S400x64 .f32).view

/-- What the launch hands the region: the two scratch arrays at some contents each, and the generator register. -/
theorem PhiA_eq (c : Dev nD) :
    (Pipeline.ΦA spec0 c : sProp 𝕄)
      = iprop(iprop((∃ d, owns (c : Thread nD τ) scH fullShare d) ∗ (∃ d, owns (c : Thread nD τ) scI fullShare d)) ∗ (∃ r, prngReg c r)) := by
  unfold Pipeline.ΦA; rw [scopedRest0_eq]; simp only [scH, scI, owns_whole]; try rfl

end Cert.KernelIdeal.Hand

end
-- ==== Proof.KI.RunA.lean ====
/-
  The body in phase one (first grid coordinate 0), on any whole staging memrefs: the inputs at named contents, the
  output's buffer at any contents and handed back untouched, the two scratch arrays at named contents. It runs to
  the end leaving in each scratch array what it held with one slice overwritten: the pieces (a rectangle of 400 rows
  and the payload stored through it) are found by running the body, and are this definition's first two components.
-/
import proofs.«146354_g81527069213097_cont_9to1_m_921_19_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase one's run: the pieces stored into the hidden-layer scratch (first) and into the reciprocals' scratch
    (second), with the proof that the body, from the memrefs at those contents, reaches any continuation that
    takes them back with the pieces written. -/
noncomputable def runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x128 .f32) (harg11 : arg11.IsWhole) (arg12 : Memref sig .tc .vmem S10000x128 .f32) (harg12 : arg12.IsWhole) (hcA : condA i) (hcB : ¬condB i)
    (x0 : Vec F S400x10000 .f32) (x1 : Vec F S10000x128 .f32) (x2 : Vec F S128x128 .f32) (x3 : Vec F S128x128 .f32) (x4 : Vec F S128x128 .f32) (x5 : Vec F S128x128 .f32) (x6 : Vec F S128x64 .f32) (x7 : Vec F S1x64 .f32) :
    Σ' (LH : List (View.Piece (Elt F) S10000x128 .f32)), { LI : List (View.Piece (Elt F) S10000x128 .f32) //
      ∀ (xo : Vec F S400x64 .f32) (xh xi : Vec F S10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare xh ∗ owns (c : Thread nD τ) arg12 fullShare xi
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo
                ∗ (arg11.view.loc (c : Thread nD τ) ↦[arg11.view.set]{fullShare} arg11.view.writes (Elt F) (harg11.unread xh) LH)
                ∗ (arg12.view.loc (c : Thread nD τ) ↦[arg12.view.set]{fullShare} arg12.view.writes (Elt F) (harg12.unread xi) LI)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, fun xo xh xi E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexact HS0
    iexact HS1

end Cert.KernelIdeal.Hand

end
-- ==== Proof.KI.RunB.lean ====
/-
  The body in phase two (first grid coordinate 1), on any whole staging memrefs: the inputs and the two scratch
  arrays at named contents, the output's buffer at any contents. It runs to the end leaving the scratch arrays as
  they were and the output's buffer with one whole-block store; the piece is found by running the body.
-/
import proofs.«146354_g81527069213097_cont_9to1_m_921_19_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase two's run: the pieces stored into the output's staging buffer, with the proof that the body, from the memrefs
    at those contents, reaches any continuation that takes them back with the pieces written. -/
noncomputable def runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x128 .f32) (harg11 : arg11.IsWhole) (arg12 : Memref sig .tc .vmem S10000x128 .f32) (harg12 : arg12.IsWhole) (hcA : ¬condA i) (hcB : condB i)
    (x0 : Vec F S400x10000 .f32) (x1 : Vec F S10000x128 .f32) (x2 : Vec F S128x128 .f32) (x3 : Vec F S128x128 .f32) (x4 : Vec F S128x128 .f32) (x5 : Vec F S128x128 .f32) (x6 : Vec F S128x64 .f32) (x7 : Vec F S1x64 .f32) (xh xi : Vec F S10000x128 .f32) :
    { LO : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xh ∗ owns (c : Thread nD τ) arg12 fullShare xi
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f LO)
                ∗ owns (c : Thread nD τ) arg11 fullShare xh ∗ owns (c : Thread nD τ) arg12 fullShare xi) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    iexists _; isplitr; · ipureintro; exact harg12.read_unread _
    iexact HS1

end Cert.KernelIdeal.Hand

end
-- ==== Proof.KI.Frame.lean ====
/-
  The region's run with the two scratch arrays followed point by point.

  Phase one fills each scratch array one slice of 400 rows per point over whatever it held before the region;
  after n points of phase one it holds those prior contents with the first n points' pieces written over them,
  and after all 25 every row has been written, so what it holds no longer depends on the prior contents.
  Phase two reads the two arrays back at those contents and leaves them as they are. The region's invariant
  binds the prior contents; the output window's block at a point of phase two is named through the run of that
  point at the arrays' final contents, and is idle (not written back) throughout phase one.
-/
import proofs.«146354_g81527069213097_cont_9to1_m_921_19_alg».proof.Proof.KI.RunA
import proofs.«146354_g81527069213097_cont_9to1_m_921_19_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- In phase one the slice's offsets are 400·i rows down, column 0. -/
theorem hoffA : ∀ t : Fin cfg0.N, t.val < 25 → k0_off1 (grid0.coords t) = ![400 * t.val, 0] := by
  decide +kernel

/-- Phase one's run at grid point t: at the point's staging memrefs and input blocks, on the two scratch arrays. -/
abbrev runAt (c : Dev nD) (t : Fin cfg0.N) (ht : t.val < 25) :=
  runA (F := F) c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scH (Memref.isWhole_whole _) scI (Memref.isWhole_whole _)
    ((hcondA t).mpr ht) (fun h => absurd ((hcondB t).mp h) (by omega))
    (iblk m c 0 t) (iblk m c 1 t) (iblk m c 2 t) (iblk m c 3 t) (iblk m c 4 t) (iblk m c 5 t) (iblk m c 6 t) (iblk m c 7 t)

/-- The pieces the first n points have stored into the hidden-layer scratch, the last first (none after point 24). -/
def piecesH (c : Dev nD) : ℕ → List (View.Piece (Elt F) S10000x128 .f32)
  | 0 => []
  | n + 1 => if h : n < 25 then (runAt m c ⟨n, by have := N50; omega⟩ h).1 ++ piecesH c n else piecesH c n

/-- The same for the reciprocals' scratch. -/
def piecesI (c : Dev nD) : ℕ → List (View.Piece (Elt F) S10000x128 .f32)
  | 0 => []
  | n + 1 => if h : n < 25 then (runAt m c ⟨n, by have := N50; omega⟩ h).2.1 ++ piecesI c n else piecesI c n

theorem piecesH_succ_lt (c : Dev nD) (t : Fin cfg0.N) (ht : t.val < 25) :
    piecesH m c (t.val + 1) = (runAt m c t ht).1 ++ piecesH m c t.val := by
  show (if h : t.val < 25 then _ else _) = _
  rw [dif_pos ht]

theorem piecesI_succ_lt (c : Dev nD) (t : Fin cfg0.N) (ht : t.val < 25) :
    piecesI m c (t.val + 1) = (runAt m c t ht).2.1 ++ piecesI m c t.val := by
  show (if h : t.val < 25 then _ else _) = _
  rw [dif_pos ht]

theorem piecesH_succ_ge (c : Dev nD) (n : ℕ) (hn : 25 ≤ n) : piecesH m c (n + 1) = piecesH m c n := by
  show (if h : n < 25 then _ else _) = _
  rw [dif_neg (by omega)]

theorem piecesI_succ_ge (c : Dev nD) (n : ℕ) (hn : 25 ≤ n) : piecesI m c (n + 1) = piecesI m c n := by
  show (if h : n < 25 then _ else _) = _
  rw [dif_neg (by omega)]

theorem piecesH_ge (c : Dev nD) (n : ℕ) (hn : 25 ≤ n) : piecesH m c n = piecesH m c 25 := by
  induction n, hn using Nat.le_induction with
  | base => rfl
  | succ n hn ih => rw [piecesH_succ_ge m c n hn, ih]

theorem piecesI_ge (c : Dev nD) (n : ℕ) (hn : 25 ≤ n) : piecesI m c n = piecesI m c 25 := by
  induction n, hn using Nat.le_induction with
  | base => rfl
  | succ n hn ih => rw [piecesI_succ_ge m c n hn, ih]

/-- The piece point t of phase one stores into the hidden-layer scratch covers rows 400·t … 400·t + 399. -/
theorem mem_pieceH (c : Dev nD) (t : Fin cfg0.N) (ht : t.val < 25) (y : S10000x128.Idx)
    (hy : 400 * t.val ≤ (y 0).val ∧ (y 0).val < 400 * t.val + 400) : ∃ p ∈ (runAt m c t ht).1, y ∈ p.1.set := by
  unfold runAt runA
  dsimp only
  refine ⟨_, List.mem_singleton.mpr rfl, ?_⟩
  dsimp only
  rw [Rect.mem_set_unit]
  intro a
  have h1 : (y 1).val < 128 := (y 1).isLt
  have e0 : k0_off1 (grid0.coords t) 0 = 400 * t.val := by rw [hoffA t ht]; rfl
  have e1 : k0_off1 (grid0.coords t) 1 = 0 := by rw [hoffA t ht]; rfl
  match a with
  | ⟨0, _⟩ => show k0_off1 (grid0.coords t) 0 ≤ (y 0).val ∧ (y 0).val < k0_off1 (grid0.coords t) 0 + 400; rw [e0]; exact hy
  | ⟨1, _⟩ => show k0_off1 (grid0.coords t) 1 ≤ (y 1).val ∧ (y 1).val < k0_off1 (grid0.coords t) 1 + 128; rw [e1]; omega

theorem mem_pieceI (c : Dev nD) (t : Fin cfg0.N) (ht : t.val < 25) (y : S10000x128.Idx)
    (hy : 400 * t.val ≤ (y 0).val ∧ (y 0).val < 400 * t.val + 400) : ∃ p ∈ (runAt m c t ht).2.1, y ∈ p.1.set := by
  unfold runAt runA
  dsimp only
  refine ⟨_, List.mem_singleton.mpr rfl, ?_⟩
  dsimp only
  rw [Rect.mem_set_unit]
  intro a
  have h1 : (y 1).val < 128 := (y 1).isLt
  have e0 : k0_off1 (grid0.coords t) 0 = 400 * t.val := by rw [hoffA t ht]; rfl
  have e1 : k0_off1 (grid0.coords t) 1 = 0 := by rw [hoffA t ht]; rfl
  match a with
  | ⟨0, _⟩ => show k0_off1 (grid0.coords t) 0 ≤ (y 0).val ∧ (y 0).val < k0_off1 (grid0.coords t) 0 + 400; rw [e0]; exact hy
  | ⟨1, _⟩ => show k0_off1 (grid0.coords t) 1 ≤ (y 1).val ∧ (y 1).val < k0_off1 (grid0.coords t) 1 + 128; rw [e1]; omega

/-- After n points of phase one the rows below 400·n are covered. -/
theorem coverH_upto (c : Dev nD) : ∀ n : ℕ, n ≤ 25 → ∀ y : S10000x128.Idx, (y 0).val < 400 * n → ∃ p ∈ piecesH m c n, y ∈ p.1.set
  | 0, _, y, hy => absurd hy (by omega)
  | n + 1, hn, y, hy => by
    have hlt : n < 25 := by omega
    have e := piecesH_succ_lt m c ⟨n, by have := N50; omega⟩ hlt
    dsimp only at e
    rw [e]
    by_cases h : (y 0).val < 400 * n
    · obtain ⟨p, hp, hm⟩ := coverH_upto c n (by omega) y h
      exact ⟨p, List.mem_append_right _ hp, hm⟩
    · obtain ⟨p, hp, hm⟩ := mem_pieceH m c ⟨n, by have := N50; omega⟩ hlt y ⟨by dsimp only; omega, by dsimp only; omega⟩
      exact ⟨p, List.mem_append_left _ hp, hm⟩

theorem coverI_upto (c : Dev nD) : ∀ n : ℕ, n ≤ 25 → ∀ y : S10000x128.Idx, (y 0).val < 400 * n → ∃ p ∈ piecesI m c n, y ∈ p.1.set
  | 0, _, y, hy => absurd hy (by omega)
  | n + 1, hn, y, hy => by
    have hlt : n < 25 := by omega
    have e := piecesI_succ_lt m c ⟨n, by have := N50; omega⟩ hlt
    dsimp only at e
    rw [e]
    by_cases h : (y 0).val < 400 * n
    · obtain ⟨p, hp, hm⟩ := coverI_upto c n (by omega) y h
      exact ⟨p, List.mem_append_right _ hp, hm⟩
    · obtain ⟨p, hp, hm⟩ := mem_pieceI m c ⟨n, by have := N50; omega⟩ hlt y ⟨by dsimp only; omega, by dsimp only; omega⟩
      exact ⟨p, List.mem_append_left _ hp, hm⟩

/-- After phase one every element of the hidden-layer scratch has been written. -/
theorem coverH (c : Dev nD) (y : S10000x128.Idx) : ∃ p ∈ piecesH m c 25, y ∈ p.1.set :=
  coverH_upto m c 25 le_rfl y (by have : (y 0).val < 10000 := (y 0).isLt; omega)

theorem coverI (c : Dev nD) (y : S10000x128.Idx) : ∃ p ∈ piecesI m c 25, y ∈ p.1.set :=
  coverI_upto m c 25 le_rfl y (by have : (y 0).val < 10000 := (y 0).isLt; omega)

/-- What the hidden-layer scratch holds after phase one, whatever it held before. -/
def XH (c : Dev nD) : Vec F S10000x128 .f32 :=
  scH.view.read (Elt F) (scH.view.writes (Elt F) scH.view.junk (piecesH m c 25))

/-- What the reciprocals' scratch holds after phase one, whatever it held before. -/
def XI (c : Dev nD) : Vec F S10000x128 .f32 :=
  scI.view.read (Elt F) (scI.view.writes (Elt F) scI.view.junk (piecesI m c 25))

theorem readH_final (c : Dev nD) (d : scH.view.ty.Contents (Elt F)) :
    scH.view.read (Elt F) (scH.view.writes (Elt F) d (piecesH m c 25)) = XH m c :=
  View.read_writes_of_cover _ _ _ _ _ (coverH m c)

theorem readI_final (c : Dev nD) (d : scI.view.ty.Contents (Elt F)) :
    scI.view.read (Elt F) (scI.view.writes (Elt F) d (piecesI m c 25)) = XI m c :=
  View.read_writes_of_cover _ _ _ _ _ (coverI m c)

/-- Phase two's run at grid point t: at the point's staging memrefs and input blocks, the scratch arrays at their final contents. -/
abbrev runBt (c : Dev nD) (t : Fin cfg0.N) (ht : 25 ≤ t.val) :=
  runB (F := F) c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) scH (Memref.isWhole_whole _) scI (Memref.isWhole_whole _)
    (fun h => absurd ((hcondA t).mp h) (by omega)) ((hcondB t).mpr ht)
    (iblk m c 0 t) (iblk m c 1 t) (iblk m c 2 t) (iblk m c 3 t) (iblk m c 4 t) (iblk m c 5 t) (iblk m c 6 t) (iblk m c 7 t) (XH m c) (XI m c)

/-- Phase two's one store covers the output's block. -/
theorem coverO (c : Dev nD) (t : Fin cfg0.N) (ht : 25 ≤ t.val) (y : S400x64.Idx) : ∃ pc ∈ (runBt m c t ht).1, y ∈ pc.1.set :=
  View.cover_of_tiledL (runBt m c t ht).1 S400x64.size (by sl_kernel_rfl) y

/-- What the output's staging buffer holds after the body at point t: in phase two the run's piece read back; in phase
    one nothing is stored (the window is idle there and this value is never consulted). -/
def outB (c : Dev nD) (t : Fin cfg0.N) : Vec F S400x64 .f32 :=
  if ht : 25 ≤ t.val then VO8.read (Elt F) (VO8.writes (Elt F) VO8.junk (runBt m c t ht).1) else VO8.read (Elt F) VO8.junk

theorem outB_B (c : Dev nD) (t : Fin cfg0.N) (ht : 25 ≤ t.val) :
    outB m c t = VO8.read (Elt F) (VO8.writes (Elt F) VO8.junk (runBt m c t ht).1) := dif_pos ht

/-- The region's invariant before position n: each scratch array at some prior contents with the first n points' pieces
    written, and the generator register at some state. -/
def PhiT (c : Dev nD) (n : ℕ) : sProp 𝕄 :=
  iprop(∃ dH, ∃ dI, owns (c : Thread nD τ) scH fullShare (scH.view.read (Elt F) (scH.view.writes (Elt F) dH (piecesH m c n)))
    ∗ owns (c : Thread nD τ) scI fullShare (scI.view.read (Elt F) (scI.view.writes (Elt F) dI (piecesI m c n)))
    ∗ (∃ r, prngReg c r))

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outB m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outB m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
/-- The body at any point. In phase one the invariant's scratch contents go in, the run's pieces come out written
    over them, which is the invariant one point later; the idle output's buffer goes in and out untouched. In phase
    two the scratch arrays hold their final contents whatever they held before the region (every row has been
    written), the run applies at those, and the output's buffer comes back with the run's piece. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [show (dats m 0 c).leavesExact 7 t = owns (c : Thread nD τ) (ms7 t) fullShare ((dats m 0 c).after 7 t) from by
    unfold Dat.leavesExact; rw [live7 t], after_7]
  have hN : t.val < 50 := lt_of_lt_of_eq t.isLt N50
  unfold PhiT
  by_cases hA : t.val < 25
  · rw [Dat.leavesExact_idle (dats m 0 c) 8 t (idle8_A t hA) (noFlush8_A t hA)]
    rw [piecesH_succ_lt m c t hA, piecesI_succ_lt m c t hA]
    iintro ⟨⟨%dH, %dI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runAt m c t hA).2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · iexists dH, dI
      rw [Memref.IsWhole.unread_read, Memref.IsWhole.unread_read, ← View.writes_append, ← View.writes_append]
      isplitl [HS0]
      · unfold owns; iexists _; isplitr
        swap; · iexact HS0
        ipureintro; rfl
      isplitl [HS1]
      · unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hB : 25 ≤ t.val := by omega
    rw [show (dats m 0 c).leavesExact 8 t = owns (c : Thread nD τ) (ms8 t) fullShare ((dats m 0 c).after 8 t) from by
      unfold Dat.leavesExact; rw [live8_B t hB], after_8, outB_B m c t hB]
    rw [piecesH_ge m c t.val hB, piecesI_ge m c t.val hB, piecesH_ge m c (t.val + 1) (by omega), piecesI_ge m c (t.val + 1) (by omega)]
    iintro ⟨⟨%dH, %dI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [readH_final m c dH, readI_final m c dI]
    iapply ((runBt m c t hB).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · iexists scH.view.junk, scI.view.junk
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverO m c t hB)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing written yet. -/
theorem hin (c : Dev nD) : Pipeline.ΦA spec0 c ⊢ (dats m 0 c).Φ 0 := by
  rw [show (dats m 0 c).Φ 0 = PhiT m c 0 from rfl, PhiA_eq]
  unfold PhiT owns
  iintro ⟨⟨⟨%dH, %fH, %hH, HS0⟩, ⟨%dI, %fI, %hI, HS1⟩⟩, Hg⟩
  iexists fH, fI
  isplitl [HS0]
  · iexists fH; isplitr
    swap; · iexact HS0
    ipureintro; rfl
  isplitl [HS1]
  · iexists fI; isplitr
    swap; · iexact HS1
    ipureintro; rfl
  iexact Hg

/-- After the last point the invariant gives the scratch arrays back at whatever they hold. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨%dH, %dI, HS0, HS1, Hg⟩
  isplitl [HS0 HS1]
  · isplitl [HS0]
    · iexists _; iexact HS0
    iexists _; iexact HS1
  iexact Hg

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KOut.lean ====
/-
  Where and what the output window of the idealized kernel writes back. The grid has 2 × 25 = 50 points; the
  output array has 10000 rows of 64, cut into 25 blocks of 400 rows; at grid point (p, i) the window is on
  block p · i. It is written back exactly at the points 25 ≤ t, where it is on block t - 25: so the 25
  write-backs are onto the 25 distinct blocks, which together cover the array (row r lies in block r / 400,
  written back at point 25 + r / 400), and entry (r, c) of block t - 25 is entry (400 (t - 25) + r, c) of the
  array.
-/
import proofs.«146354_g81527069213097_cont_9to1_m_921_19_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.KOut

open Cert.KernelIdeal Cert.KernelIdeal.Gen Idealize.ShloMosaic Idealize.ShloMosaic.ValueIdx Idealize.ShloMosaic.Pipeline
open Idealize.ShloMosaic.TcCoe Idealize.SL.Sem

/-- The output window is written back exactly at the points of the second half of the grid. -/
theorem flush8 : ∀ t : Fin cfg0.N, (cfg0.win 8).flush t = true ↔ 25 ≤ t.val :=
  (by decide +kernel : ∀ t : Fin grid0.N, win0_8.flush t = true ↔ 25 ≤ t.val)

/-- There the window is on block (t - 25, 0). -/
theorem idx8 : ∀ t : Fin cfg0.N, 25 ≤ t.val → win0_8.index t 0 = t.val - 25 ∧ win0_8.index t 1 = 0 :=
  (by decide +kernel : ∀ t : Fin grid0.N, 25 ≤ t.val → win0_8.index t 0 = t.val - 25 ∧ win0_8.index t 1 = 0)

/-- An index of the array is in point t's block iff each coordinate is in the block's range on its axis. -/
theorem mem_blk8 (t : Fin cfg0.N) (i : S10000x64.Idx) :
    i ∈ ((cfg0.win 8).blk t).view.set ↔ ∀ a : Fin 2, win0_8.index t a * S400x64.size a ≤ (i a).val ∧ (i a).val < win0_8.index t a * S400x64.size a + S400x64.size a := by
  show i ∈ ((View.whole main_v0).slice (win0_8.rect t)).set ↔ _
  rw [View.set_slice_whole, Rect.mem_set_unit]
  exact Iff.rfl

/-- Every index of the output array lies in a block that is written back: row r in the block of point 25 + r / 400. -/
theorem cover8 (c : Dev nD) : ∀ i : ((cfg0.win 8).arr.view.loc (c.tc : Thread nD τ)).2.ty.Idx,
    ∃ t : Fin cfg0.N, (cfg0.win 8).flush t = true ∧ i ∈ ((cfg0.win 8).blk t).view.set := by
  intro i
  have hN : cfg0.N = 50 := N_0
  have hi0 : ((i : S10000x64.Idx) 0).val < 10000 := ((i : S10000x64.Idx) 0).isLt
  have hi1 : ((i : S10000x64.Idx) 1).val < 64 := ((i : S10000x64.Idx) 1).isLt
  let t : Fin cfg0.N := ⟨25 + ((i : S10000x64.Idx) 0).val / 400, by omega⟩
  have ht : 25 ≤ t.val := Nat.le_add_right _ _
  obtain ⟨q0, q1⟩ := idx8 t ht
  have htv : t.val = 25 + ((i : S10000x64.Idx) 0).val / 400 := rfl
  refine ⟨t, (flush8 t).mpr ht, ?_⟩
  rw [mem_blk8 t i]
  intro a
  match a with
  | ⟨0, _⟩ =>
    show win0_8.index t (0 : Fin 2) * 400 ≤ ((i : S10000x64.Idx) 0).val ∧ ((i : S10000x64.Idx) 0).val < win0_8.index t (0 : Fin 2) * 400 + 400
    rw [q0, htv]; omega
  | ⟨1, _⟩ =>
    show win0_8.index t (1 : Fin 2) * 64 ≤ ((i : S10000x64.Idx) 1).val ∧ ((i : S10000x64.Idx) 1).val < win0_8.index t (1 : Fin 2) * 64 + 64
    rw [q1]; omega

/-- Entry (r, cc) of the block at a write-back point t is entry (400 (t - 25) + r, cc) of the array. -/
theorem blk8_read_at (c : Dev nD) (G : Buf (Elt Ideal) ((cfg0.win 8).arr.view.loc (c.tc : Thread nD τ))) (t : Fin cfg0.N) (ht : 25 ≤ t.val) (r : Fin 400) (cc : Fin 64) :
    (((cfg0.win 8).blk t).view.read (Elt Ideal) G : S400x64.Idx → EReal) (ix2 r cc)
      = (G : S10000x64.Idx → EReal) (ix2 ⟨400 * (t.val - 25) + r.val, by have := r.isLt; have := t.isLt; have : cfg0.N = 50 := N_0; omega⟩ cc) := by
  obtain ⟨q0, q1⟩ := idx8 t ht
  rw [View.read_apply]
  refine congrArg (G : S10000x64.Idx → EReal) ?_
  funext a
  apply Fin.ext
  match a with
  | ⟨0, _⟩ => show win0_8.index t 0 * 400 + 1 * r.val = 400 * (t.val - 25) + r.val; rw [q0]; omega
  | ⟨1, _⟩ => show win0_8.index t 1 * 64 + 1 * cc.val = cc.val; rw [q1]; omega

end Cert.KernelIdeal.KOut

end
-- ==== Proof.Spec.lean ====
/-
  The two programs' common result, one element at a time, on the extended reals.

  A node i of the graph has a feature row (x i); (adj i k) weighs the edge from k to i. One layer takes a
  row (h i) to relu (h i · Wself + (mean of the neighbours' rows) · Wneigh), where the weight matrix
  W : 128 × 256 holds Wself in its first 128 columns and Wneigh in its last 128, and the mean is the
  weighted sum of the neighbours' rows over 1 + (the sum of the row's weights). Two layers, then a
  linear map W3, a bias b3, and a row-wise log-softmax.

  Sage.* spells it as the kernel computes it (the weighted sum TIMES the reciprocal of the divisor, the two
  halves of the weight matrix as two sums, the log-softmax as l - (max + log Σ exp (l - max)));
  SageRef.* as the reference does (the weighted sum OVER the divisor, one sum over the 256 joined
  columns, the log-softmax as (l - max) - log Σ exp (l - max), sums started from the zero word).
  The three words that occur — one, zero, minus infinity — are kept as words.
-/
import Idealize.ShloMosaic.PureOps.Ideal.Laws
import Idealize.ShloMosaic.Lib.ValueIdx

noncomputable section

open scoped BigOperators

namespace Cert.Sage

open Idealize.ShloMosaic

/-- The word 1.0. -/
abbrev one : EReal := Ideal.ofBits .f32 0x3F800000#32
/-- The word 0.0. -/
abbrev zero : EReal := Ideal.ofBits .f32 0x00000000#32
/-- The word -inf. -/
abbrev ninf : EReal := Ideal.ofBits .f32 0xFF800000#32

/-- Column k of the first half of a 256-column row. -/
abbrev lo (k : Fin 128) : Fin 256 := ⟨k.val, by omega⟩
/-- Column k of the second half of a 256-column row. -/
abbrev hi (k : Fin 128) : Fin 256 := ⟨128 + k.val, by omega⟩

section Kernel

variable (adj : Fin 10000 → Fin 10000 → EReal)

/-- The reciprocal of one plus row i's total weight. -/
def inv (i : Fin 10000) : EReal := Ideal.div one ((∑ k : Fin 10000, adj i k) + one)

/-- The neighbours' mean of column c at node i: the weighted sum times the reciprocal. -/
def agg (h : Fin 10000 → Fin 128 → EReal) (i : Fin 10000) (c : Fin 128) : EReal :=
  (∑ k : Fin 10000, adj i k * h k c) * inv adj i

/-- One layer: the node's own row through the first half of W, the neighbours' mean through the second, then relu. -/
def layer (W : Fin 128 → Fin 256 → EReal) (h : Fin 10000 → Fin 128 → EReal) (i : Fin 10000) (c : Fin 128) : EReal :=
  max ((∑ k : Fin 128, h i k * W c (lo k)) + ∑ k : Fin 128, agg adj h i k * W c (hi k)) zero

end Kernel

/-- The largest entry of a row of 64, started from minus infinity. -/
def rowmax (l : Fin 64 → EReal) : EReal := (Finset.univ : Finset (Fin 64)).fold max ninf l

/-- Log-softmax of a row, the kernel's way: l c - (max + log Σ exp (l - max)). -/
def lsm (l : Fin 64 → EReal) (c : Fin 64) : EReal :=
  l c - (rowmax l + Ideal.log (∑ c' : Fin 64, Ideal.exp (l c' - rowmax l)))

/-- The logits of node i. -/
def logits (x : Fin 10000 → Fin 128 → EReal) (adj : Fin 10000 → Fin 10000 → EReal) (W1 W2 : Fin 128 → Fin 256 → EReal)
    (W3 : Fin 64 → Fin 128 → EReal) (b3 : Fin 64 → EReal) (i : Fin 10000) (c : Fin 64) : EReal :=
  (∑ k : Fin 128, layer adj W2 (layer adj W1 x) i k * W3 c k) + b3 c

/-- The result at node i, class c. -/
def out (x : Fin 10000 → Fin 128 → EReal) (adj : Fin 10000 → Fin 10000 → EReal) (W1 W2 : Fin 128 → Fin 256 → EReal)
    (W3 : Fin 64 → Fin 128 → EReal) (b3 : Fin 64 → EReal) (i : Fin 10000) (c : Fin 64) : EReal :=
  lsm (logits x adj W1 W2 W3 b3 i) c

end Cert.Sage

namespace Cert.SageRef

open Idealize.ShloMosaic Cert.Sage

section Ref

variable (adj : Fin 10000 → Fin 10000 → EReal)

/-- One plus row i's total weight, the sum started from the zero word. -/
def den (i : Fin 10000) : EReal := (zero + ∑ k : Fin 10000, adj i k) + one

/-- The neighbours' mean: the weighted sum over the divisor. -/
def agg (h : Fin 10000 → Fin 128 → EReal) (i : Fin 10000) (c : Fin 128) : EReal :=
  Ideal.div (∑ k : Fin 10000, adj i k * h k c) (den adj i)

/-- The node's own row joined with the neighbours' mean: 256 columns. -/
def cat (h : Fin 10000 → Fin 128 → EReal) (i : Fin 10000) (k : Fin 256) : EReal :=
  if hk : k.val < 128 then h i ⟨k.val, hk⟩ else agg adj h i ⟨k.val - 128, by omega⟩

/-- One layer: the joined row against the whole of W, then relu. -/
def layer (W : Fin 128 → Fin 256 → EReal) (h : Fin 10000 → Fin 128 → EReal) (i : Fin 10000) (c : Fin 128) : EReal :=
  max (∑ k : Fin 256, cat adj h i k * W c k) zero

end Ref

/-- The largest entry of a row, the reference's way: minus infinity against the fold started from minus infinity. -/
def rowmax (l : Fin 64 → EReal) : EReal := max ninf ((Finset.univ : Finset (Fin 64)).fold max ninf l)

/-- Log-softmax of a row, the reference's way: (l c - max) - log (0 + Σ exp (l - max)). -/
def lsm (l : Fin 64 → EReal) (c : Fin 64) : EReal :=
  (l c - rowmax l) - Ideal.log (zero + ∑ c' : Fin 64, Ideal.exp (l c' - rowmax l))

/-- The logits of node i. -/
def logits (x : Fin 10000 → Fin 128 → EReal) (adj : Fin 10000 → Fin 10000 → EReal) (W1 W2 : Fin 128 → Fin 256 → EReal)
    (W3 : Fin 64 → Fin 128 → EReal) (b3 : Fin 64 → EReal) (i : Fin 10000) (c : Fin 64) : EReal :=
  (∑ k : Fin 128, layer adj W2 (layer adj W1 x) i k * W3 c k) + b3 c

/-- The result at node i, class c. -/
def out (x : Fin 10000 → Fin 128 → EReal) (adj : Fin 10000 → Fin 10000 → EReal) (W1 W2 : Fin 128 → Fin 256 → EReal)
    (W3 : Fin 64 → Fin 128 → EReal) (b3 : Fin 64 → EReal) (i : Fin 10000) (c : Fin 64) : EReal :=
  lsm (logits x adj W1 W2 W3 b3 i) c

end Cert.SageRef

end
-- ==== Proof.KArrays.lean ====
/-
  Each staged block of the kernel, at any grid point, read as the arrays the program was launched with.

  The grid is 2 × 25 and point t has second coordinate t mod 25. The adjacency is staged in blocks of 400 rows,
  block number t mod 25: entry (r, k) of the block is entry (400 · (t mod 25) + r, k) of the adjacency. The features
  are staged whole. The four weight blocks are what the host wrote before the region: the left or right half
  (columns 0…127 or 128…255) of a 128 × 256 weight matrix, transposed, so entry (k, c) of a block is the matrix at
  (c, k) or (c, 128 + k); the last weight block is the 64 × 128 matrix transposed; the bias block is the bias
  vector as one row.
-/
import proofs.«146354_g81527069213097_cont_9to1_m_921_19_alg».proof.Proof.Gen.KernelIdeal.Frame
import proofs.«146354_g81527069213097_cont_9to1_m_921_19_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KArrays

open Cert.KernelIdeal Cert.KernelIdeal.Gen Idealize.ShloMosaic Idealize.ShloMosaic.ValueIdx Cert.Sage
open Idealize.ShloMosaic.TcCoe Idealize.SL.Sem

variable (m : (ℓ : Loc nD τ sig) → Buf (Elt Ideal) ℓ) (c : Dev nD)

/-! ## The launch arrays as functions of coordinates -/

/-- The features. -/
abbrev xF : Fin 10000 → Fin 128 → EReal := fun i k => (m ((c.tc : Thread nD τ).loc main_arg0) : S10000x128.Idx → EReal) (ix2 i k)
/-- The adjacency weights. -/
abbrev adjF : Fin 10000 → Fin 10000 → EReal := fun i k => (m ((c.tc : Thread nD τ).loc main_arg1) : S10000x10000.Idx → EReal) (ix2 i k)
/-- The first layer's weight matrix. -/
abbrev W1F : Fin 128 → Fin 256 → EReal := fun i k => (m ((c.tc : Thread nD τ).loc main_arg2) : S128x256.Idx → EReal) (ix2 i k)
/-- The second layer's weight matrix. -/
abbrev W2F : Fin 128 → Fin 256 → EReal := fun i k => (m ((c.tc : Thread nD τ).loc main_arg3) : S128x256.Idx → EReal) (ix2 i k)
/-- The last linear map. -/
abbrev W3F : Fin 64 → Fin 128 → EReal := fun i k => (m ((c.tc : Thread nD τ).loc main_arg4) : S64x128.Idx → EReal) (ix2 i k)
/-- The bias. -/
abbrev b3F : Fin 64 → EReal := fun i => (m ((c.tc : Thread nD τ).loc main_arg5) : S64.Idx → EReal) (ix1 i)

/-! ## The two blocks read off argument arrays -/

/-- The adjacency window's block number at point t is (t mod 25, 0). -/
theorem index0 : ∀ t : Fin cfg0.N, win0_0.index t 0 = t.val % 25 ∧ win0_0.index t 1 = 0 :=
  (by decide +kernel : ∀ t : Fin grid0.N, win0_0.index t 0 = t.val % 25 ∧ win0_0.index t 1 = 0)

/-- The feature window's block number is (0, 0) at every point. -/
theorem index1 : ∀ t : Fin cfg0.N, win0_1.index t 0 = 0 ∧ win0_1.index t 1 = 0 :=
  (by decide +kernel : ∀ t : Fin grid0.N, win0_1.index t 0 = 0 ∧ win0_1.index t 1 = 0)

theorem iblk0_at (t : Fin cfg0.N) (r : Fin 400) (k : Fin 10000) :
    (iblk m c 0 t : S400x10000.Idx → EReal) (ix2 r k) = adjF m c ⟨400 * (t.val % 25) + r.val, by have := r.isLt; omega⟩ k := by
  have hi := index0 t
  unfold iblk
  rw [View.read_apply]
  show V m c main_arg1 _ = m ((c.tc : Thread nD τ).loc main_arg1) _
  rw [V_main_arg1]
  congr 1
  funext a
  apply Fin.ext
  match a with
  | ⟨0, _⟩ => show win0_0.index t 0 * 400 + 1 * r.val = 400 * (t.val % 25) + r.val; rw [hi.1]; omega
  | ⟨1, _⟩ => show win0_0.index t 1 * 10000 + 1 * k.val = k.val; rw [hi.2]; omega

theorem iblk1_at (t : Fin cfg0.N) (i : Fin 10000) (k : Fin 128) :
    (iblk m c 1 t : S10000x128.Idx → EReal) (ix2 i k) = xF m c i k := by
  have hi := index1 t
  unfold iblk
  rw [View.read_apply]
  show V m c main_arg0 _ = m ((c.tc : Thread nD τ).loc main_arg0) _
  rw [V_main_arg0]
  congr 1
  funext a
  apply Fin.ext
  match a with
  | ⟨0, _⟩ => show win0_1.index t 0 * 10000 + 1 * i.val = i.val; rw [hi.1]; omega
  | ⟨1, _⟩ => show win0_1.index t 1 * 128 + 1 * k.val = k.val; rw [hi.2]; omega

/-! ## The blocks read off arrays the host wrote before the region -/

theorem index2 : ∀ t : Fin cfg0.N, win0_2.index t 0 = 0 ∧ win0_2.index t 1 = 0 :=
  (by decide +kernel : ∀ t : Fin grid0.N, win0_2.index t 0 = 0 ∧ win0_2.index t 1 = 0)

/-- Window 2's block is its whole array as the region finds it. -/
theorem blk2_at (t : Fin cfg0.N) (k : Fin 128) (c' : Fin 128) :
    (iblk m c 2 t : S128x128.Idx → EReal) (ix2 k c') = (V m c main_call0_v1 : S128x128.Idx → EReal) (ix2 k c') := by
  have hi := index2 t
  unfold iblk
  rw [View.read_apply]
  show (V m c main_call0_v1 : S128x128.Idx → EReal) _ = _
  congr 1
  funext a
  apply Fin.ext
  match a with
  | ⟨0, _⟩ => show win0_2.index t 0 * 128 + 1 * k.val = k.val; rw [hi.1]; omega
  | ⟨1, _⟩ => show win0_2.index t 1 * 128 + 1 * c'.val = c'.val; rw [hi.2]; omega

/-- What the host wrote there: columns 0…127 of the weight matrix, transposed. -/
theorem V_v1 : (V m c main_call0_v1 : S128x128.Idx → EReal)
    = transpose S128x128 [1, 0] (extractStridedSlice S128x128 ![0, 0] (m ((c.tc : Thread nD τ).loc main_arg2) : S128x256.Idx → EReal) slices_S128x256_S128x128_0_0) transposes_S128x128_S128x128_1_0 := by
  dsimp only [Gen.V, Gen.hostOps0]; after_results; rfl

theorem iblk2_at (t : Fin cfg0.N) (k c' : Fin 128) : (iblk m c 2 t : S128x128.Idx → EReal) (ix2 k c') = W1F m c c' (lo k) := by
  rw [blk2_at, V_v1]
  refine (transpose_ix2_apply _ _ k c').trans ?_
  exact slice2_axis1_apply 0 _ _ c' k (lo k) (Nat.zero_add _).symm

theorem index3 : ∀ t : Fin cfg0.N, win0_3.index t 0 = 0 ∧ win0_3.index t 1 = 0 :=
  (by decide +kernel : ∀ t : Fin grid0.N, win0_3.index t 0 = 0 ∧ win0_3.index t 1 = 0)

/-- Window 3's block is its whole array as the region finds it. -/
theorem blk3_at (t : Fin cfg0.N) (k : Fin 128) (c' : Fin 128) :
    (iblk m c 3 t : S128x128.Idx → EReal) (ix2 k c') = (V m c main_call0_v3 : S128x128.Idx → EReal) (ix2 k c') := by
  have hi := index3 t
  unfold iblk
  rw [View.read_apply]
  show (V m c main_call0_v3 : S128x128.Idx → EReal) _ = _
  congr 1
  funext a
  apply Fin.ext
  match a with
  | ⟨0, _⟩ => show win0_3.index t 0 * 128 + 1 * k.val = k.val; rw [hi.1]; omega
  | ⟨1, _⟩ => show win0_3.index t 1 * 128 + 1 * c'.val = c'.val; rw [hi.2]; omega

/-- What the host wrote there: columns 128…255 of the weight matrix, transposed. -/
theorem V_v3 : (V m c main_call0_v3 : S128x128.Idx → EReal)
    = transpose S128x128 [1, 0] (extractStridedSlice S128x128 ![0, 128] (m ((c.tc : Thread nD τ).loc main_arg2) : S128x256.Idx → EReal) slices_S128x256_S128x128_0_128) transposes_S128x128_S128x128_1_0 := by
  dsimp only [Gen.V, Gen.hostOps0]; after_results; rfl

theorem iblk3_at (t : Fin cfg0.N) (k c' : Fin 128) : (iblk m c 3 t : S128x128.Idx → EReal) (ix2 k c') = W1F m c c' (hi k) := by
  rw [blk3_at, V_v3]
  refine (transpose_ix2_apply _ _ k c').trans ?_
  exact slice2_axis1_apply 128 _ _ c' k (hi k) rfl

theorem index4 : ∀ t : Fin cfg0.N, win0_4.index t 0 = 0 ∧ win0_4.index t 1 = 0 :=
  (by decide +kernel : ∀ t : Fin grid0.N, win0_4.index t 0 = 0 ∧ win0_4.index t 1 = 0)

/-- Window 4's block is its whole array as the region finds it. -/
theorem blk4_at (t : Fin cfg0.N) (k : Fin 128) (c' : Fin 128) :
    (iblk m c 4 t : S128x128.Idx → EReal) (ix2 k c') = (V m c main_call0_v5 : S128x128.Idx → EReal) (ix2 k c') := by
  have hi := index4 t
  unfold iblk
  rw [View.read_apply]
  show (V m c main_call0_v5 : S128x128.Idx → EReal) _ = _
  congr 1
  funext a
  apply Fin.ext
  match a with
  | ⟨0, _⟩ => show win0_4.index t 0 * 128 + 1 * k.val = k.val; rw [hi.1]; omega
  | ⟨1, _⟩ => show win0_4.index t 1 * 128 + 1 * c'.val = c'.val; rw [hi.2]; omega

/-- What the host wrote there: columns 0…127 of the weight matrix, transposed. -/
theorem V_v5 : (V m c main_call0_v5 : S128x128.Idx → EReal)
    = transpose S128x128 [1, 0] (extractStridedSlice S128x128 ![0, 0] (m ((c.tc : Thread nD τ).loc main_arg3) : S128x256.Idx → EReal) slices_S128x256_S128x128_0_0) transposes_S128x128_S128x128_1_0 := by
  dsimp only [Gen.V, Gen.hostOps0]; after_results; rfl

theorem iblk4_at (t : Fin cfg0.N) (k c' : Fin 128) : (iblk m c 4 t : S128x128.Idx → EReal) (ix2 k c') = W2F m c c' (lo k) := by
  rw [blk4_at, V_v5]
  refine (transpose_ix2_apply _ _ k c').trans ?_
  exact slice2_axis1_apply 0 _ _ c' k (lo k) (Nat.zero_add _).symm

theorem index5 : ∀ t : Fin cfg0.N, win0_5.index t 0 = 0 ∧ win0_5.index t 1 = 0 :=
  (by decide +kernel : ∀ t : Fin grid0.N, win0_5.index t 0 = 0 ∧ win0_5.index t 1 = 0)

/-- Window 5's block is its whole array as the region finds it. -/
theorem blk5_at (t : Fin cfg0.N) (k : Fin 128) (c' : Fin 128) :
    (iblk m c 5 t : S128x128.Idx → EReal) (ix2 k c') = (V m c main_call0_v7 : S128x128.Idx → EReal) (ix2 k c') := by
  have hi := index5 t
  unfold iblk
  rw [View.read_apply]
  show (V m c main_call0_v7 : S128x128.Idx → EReal) _ = _
  congr 1
  funext a
  apply Fin.ext
  match a with
  | ⟨0, _⟩ => show win0_5.index t 0 * 128 + 1 * k.val = k.val; rw [hi.1]; omega
  | ⟨1, _⟩ => show win0_5.index t 1 * 128 + 1 * c'.val = c'.val; rw [hi.2]; omega

/-- What the host wrote there: columns 128…255 of the weight matrix, transposed. -/
theorem V_v7 : (V m c main_call0_v7 : S128x128.Idx → EReal)
    = transpose S128x128 [1, 0] (extractStridedSlice S128x128 ![0, 128] (m ((c.tc : Thread nD τ).loc main_arg3) : S128x256.Idx → EReal) slices_S128x256_S128x128_0_128) transposes_S128x128_S128x128_1_0 := by
  dsimp only [Gen.V, Gen.hostOps0]; after_results; rfl

theorem iblk5_at (t : Fin cfg0.N) (k c' : Fin 128) : (iblk m c 5 t : S128x128.Idx → EReal) (ix2 k c') = W2F m c c' (hi k) := by
  rw [blk5_at, V_v7]
  refine (transpose_ix2_apply _ _ k c').trans ?_
  exact slice2_axis1_apply 128 _ _ c' k (hi k) rfl

theorem index6 : ∀ t : Fin cfg0.N, win0_6.index t 0 = 0 ∧ win0_6.index t 1 = 0 :=
  (by decide +kernel : ∀ t : Fin grid0.N, win0_6.index t 0 = 0 ∧ win0_6.index t 1 = 0)

/-- Window 6's block is its whole array as the region finds it. -/
theorem blk6_at (t : Fin cfg0.N) (k : Fin 128) (cc : Fin 64) :
    (iblk m c 6 t : S128x64.Idx → EReal) (ix2 k cc) = (V m c main_call0_v8 : S128x64.Idx → EReal) (ix2 k cc) := by
  have hi := index6 t
  unfold iblk
  rw [View.read_apply]
  show (V m c main_call0_v8 : S128x64.Idx → EReal) _ = _
  congr 1
  funext a
  apply Fin.ext
  match a with
  | ⟨0, _⟩ => show win0_6.index t 0 * 128 + 1 * k.val = k.val; rw [hi.1]; omega
  | ⟨1, _⟩ => show win0_6.index t 1 * 64 + 1 * cc.val = cc.val; rw [hi.2]; omega

/-- What the host wrote there: the 64 × 128 matrix transposed. -/
theorem V_v8 : (V m c main_call0_v8 : S128x64.Idx → EReal)
    = transpose S128x64 [1, 0] (m ((c.tc : Thread nD τ).loc main_arg4) : S64x128.Idx → EReal) transposes_S64x128_S128x64_1_0 := by
  dsimp only [Gen.V, Gen.hostOps0]; after_results; rfl

theorem iblk6_at (t : Fin cfg0.N) (k : Fin 128) (cc : Fin 64) : (iblk m c 6 t : S128x64.Idx → EReal) (ix2 k cc) = W3F m c cc k := by
  rw [blk6_at, V_v8]
  exact transpose_ix2_apply _ _ k cc

theorem index7 : ∀ t : Fin cfg0.N, win0_7.index t 0 = 0 ∧ win0_7.index t 1 = 0 :=
  (by decide +kernel : ∀ t : Fin grid0.N, win0_7.index t 0 = 0 ∧ win0_7.index t 1 = 0)

/-- Window 7's block is its whole array as the region finds it. -/
theorem blk7_at (t : Fin cfg0.N) (z : Fin 1) (cc : Fin 64) :
    (iblk m c 7 t : S1x64.Idx → EReal) (ix2 z cc) = (V m c main_call0_v9 : S1x64.Idx → EReal) (ix2 z cc) := by
  have hi := index7 t
  unfold iblk
  rw [View.read_apply]
  show (V m c main_call0_v9 : S1x64.Idx → EReal) _ = _
  congr 1
  funext a
  apply Fin.ext
  match a with
  | ⟨0, _⟩ => show win0_7.index t 0 * 1 + 1 * z.val = z.val; rw [hi.1]; omega
  | ⟨1, _⟩ => show win0_7.index t 1 * 64 + 1 * cc.val = cc.val; rw [hi.2]; omega

/-- What the host wrote there: the bias vector as one row. -/
theorem V_v9 : (V m c main_call0_v9 : S1x64.Idx → EReal)
    = shapeCast S1x64 (m ((c.tc : Thread nD τ).loc main_arg5) : S64.Idx → EReal) shapeCasts_S64_S1x64 := by
  dsimp only [Gen.V, Gen.hostOps0]; after_results; rfl

theorem iblk7_at (t : Fin cfg0.N) (z : Fin 1) (cc : Fin 64) : (iblk m c 7 t : S1x64.Idx → EReal) (ix2 z cc) = b3F m c cc := by
  rw [blk7_at, V_v9]
  exact shapeCast_a_1a_apply _ _ z cc

end Cert.KernelIdeal.KArrays

end
-- ==== Proof.PayAt.lean ====
/-
  The kernel body's four pure values, each read at one index on the extended reals.

  Reading a chain of vector operations at one index (r, c): a pointwise operation reads its operands at (r, c); a
  row sum or row maximum kept as a column [400] → [400, 1] and broadcast back along the row reads the row's sum or
  maximum; a matrix product into the zero matrix reads the sum over the contracted coordinate of the products.
  So the first value is the reciprocal 1 / (Σ_k adj(r, k) + 1) as a column, the second the same spread over 128
  lanes, the third one layer relu (h · Wself + ((adj · h) * reciprocal) · Wneigh) at (r, c), and the fourth the
  row-wise log-softmax, l - (max + log Σ exp (l - max)), of the second layer's logits.
-/
import proofs.«146354_g81527069213097_cont_9to1_m_921_19_alg».proof.Proof.Gen.KernelIdeal.Skeleton
import proofs.«146354_g81527069213097_cont_9to1_m_921_19_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayAt

open Idealize.ShloMosaic Idealize.ShloMosaic.ValueIdx Cert.KernelIdeal Cert.KernelIdeal.Gen Cert.Sage
open scoped BigOperators

/-! ## One operation at an index -/

section Layout
variable {α : Type}

/-- A vector [a] kept as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along a row: a lane sum of a matrix [a, b], started from the zero word, at row r. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src ?_
  funext ax
  match ax with
  | ⟨0, _⟩ => exact Fin.ext rfl
  | ⟨1, _⟩ => exact Fin.ext rfl

/-- The largest entry of a row: a lane maximum of a matrix [a, b], started from minus infinity, at row r. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  show (Finset.univ : Finset (Fin b)).fold max (Ideal.ofBits .f32 0xFF800000#32) (fun k => src (h.lift (ix1 r) k)) = _
  refine congrArg (fun f => (Finset.univ : Finset (Fin b)).fold max (Ideal.ofBits .f32 0xFF800000#32) f) (funext fun k => congrArg src ?_)
  funext ax
  match ax with
  | ⟨0, _⟩ => exact Fin.ext rfl
  | ⟨1, _⟩ => exact Fin.ext rfl

/-! ## A matrix product into the zero matrix at an index -/

/-- A plain product [a, n] × [n, b] accumulated into the zero matrix reads, at (r, c), the sum over the contracted
    coordinate k of the left factor at (r, k) times the right at (k, c): the four coordinate facts of the dimension
    numbers are what the sum is re-indexed by. -/
theorem matmul_plain_apply {a n b : ℕ} (D : DotDims ⟨2, ![a, n]⟩ ⟨2, ![n, b]⟩ ⟨2, ![a, b]⟩)
    (hr : D.contr.rank = 1) (hs : D.contr.size ⟨0, by omega⟩ = n)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (x : FVec Ideal ⟨2, ![a, n]⟩ .f32) (y : FVec Ideal ⟨2, ![n, b]⟩ .f32) (r : Fin a) (c : Fin b) :
    matmul D none x y (constant (F := Ideal) ⟨2, ![a, b]⟩ .f32 0x00000000#32) (ix2 r c)
      = ∑ k : Fin n, x (ix2 r k) * y (ix2 k c) := by
  refine (Ideal.matmul_constant_zero_apply D none x y (ix2 r c)).trans ?_
  rw [← Equiv.sum_comp (contrEquiv1 D n hr hs).symm]
  refine Finset.sum_congr rfl fun k _ => ?_
  have hk := contrEquiv1_symm_val D n hr hs k
  have el : D.lhsIdx (ix2 r c) ((contrEquiv1 D n hr hs).symm k) = ix2 r k := funext fun ax => Fin.ext (by
    match ax with
    | ⟨0, _⟩ => exact hl0 _ _
    | ⟨1, _⟩ => exact (hl1 _ _).trans hk)
  have er : D.rhsIdx (ix2 r c) ((contrEquiv1 D n hr hs).symm k) = ix2 k c := funext fun ax => Fin.ext (by
    match ax with
    | ⟨0, _⟩ => exact (hr0 _ _).trans hk
    | ⟨1, _⟩ => exact hr1 _ _)
  rw [el, er]

/-- The product of a [400, 10000] block with a [10000, 128] matrix. -/
theorem mm1_apply (x : FVec Ideal S400x10000 .f32) (y : FVec Ideal S10000x128 .f32) (r : Fin 400) (c : Fin 128) :
    matmul dot_S400x10000_S10000x128_S400x128_1_0_0_1_n_n none x y (constant (F := Ideal) S400x128 .f32 0x00000000#32) (ix2 r c)
      = ∑ k : Fin 10000, x (ix2 r k) * y (ix2 k c) :=
  matmul_plain_apply dot_S400x10000_S10000x128_S400x128_1_0_0_1_n_n rfl rfl
    (fun i q => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun i q => dot_S400x10000_S10000x128_S400x128_1_0_0_1_n_n.lhsIdx_val_of_single rfl i q)
    (fun i q => dot_S400x10000_S10000x128_S400x128_1_0_0_1_n_n.rhsIdx_val_of_single rfl i q)
    (fun i q => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    x y r c

/-- The product of a [400, 128] block with a [128, 128] matrix. -/
theorem mm2_apply (x : FVec Ideal S400x128 .f32) (y : FVec Ideal S128x128 .f32) (r : Fin 400) (c : Fin 128) :
    matmul dot_S400x128_S128x128_S400x128_1_0_0_1_n_n none x y (constant (F := Ideal) S400x128 .f32 0x00000000#32) (ix2 r c)
      = ∑ k : Fin 128, x (ix2 r k) * y (ix2 k c) :=
  matmul_plain_apply dot_S400x128_S128x128_S400x128_1_0_0_1_n_n rfl rfl
    (fun i q => by
      unfold DotDims.lhsIdx
      rw [dif_neg (show ¬(0 : Fin S400x128.rank) ∈ dot_S400x128_S128x128_S400x128_1_0_0_1_n_n.lhsBatch by decide),
        dif_pos (show (0 : Fin S400x128.rank) ∈ dot_S400x128_S128x128_S400x128_1_0_0_1_n_n.lhsNonContracting by decide)]
      rfl)
    (fun i q => dot_S400x128_S128x128_S400x128_1_0_0_1_n_n.lhsIdx_val_of_single rfl i q)
    (fun i q => dot_S400x128_S128x128_S400x128_1_0_0_1_n_n.rhsIdx_val_of_single rfl i q)
    (fun i q => by
      unfold DotDims.rhsIdx
      rw [dif_neg (show ¬(1 : Fin S128x128.rank) ∈ dot_S400x128_S128x128_S400x128_1_0_0_1_n_n.rhsBatch by decide),
        dif_pos (show (1 : Fin S128x128.rank) ∈ dot_S400x128_S128x128_S400x128_1_0_0_1_n_n.rhsNonContracting by decide)]
      rfl)
    x y r c

/-- The product of a [400, 128] block with a [128, 64] matrix. -/
theorem mm3_apply (x : FVec Ideal S400x128 .f32) (y : FVec Ideal S128x64 .f32) (r : Fin 400) (c : Fin 64) :
    matmul dot_S400x128_S128x64_S400x64_1_0_0_1_n_n none x y (constant (F := Ideal) S400x64 .f32 0x00000000#32) (ix2 r c)
      = ∑ k : Fin 128, x (ix2 r k) * y (ix2 k c) :=
  matmul_plain_apply dot_S400x128_S128x64_S400x64_1_0_0_1_n_n rfl rfl
    (fun i q => by
      unfold DotDims.lhsIdx
      rw [dif_neg (show ¬(0 : Fin S400x128.rank) ∈ dot_S400x128_S128x64_S400x64_1_0_0_1_n_n.lhsBatch by decide),
        dif_pos (show (0 : Fin S400x128.rank) ∈ dot_S400x128_S128x64_S400x64_1_0_0_1_n_n.lhsNonContracting by decide)]
      rfl)
    (fun i q => dot_S400x128_S128x64_S400x64_1_0_0_1_n_n.lhsIdx_val_of_single rfl i q)
    (fun i q => dot_S400x128_S128x64_S400x64_1_0_0_1_n_n.rhsIdx_val_of_single rfl i q)
    (fun i q => by
      unfold DotDims.rhsIdx
      rw [dif_neg (show ¬(1 : Fin S128x64.rank) ∈ dot_S400x128_S128x64_S400x64_1_0_0_1_n_n.rhsBatch by decide),
        dif_pos (show (1 : Fin S128x64.rank) ∈ dot_S400x128_S128x64_S400x64_1_0_0_1_n_n.rhsNonContracting by decide)]
      rfl)
    x y r c

/-- A row's sum kept as a column. -/
theorem colSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (r : Fin a) (u : Fin 1) :
    shapeCast ⟨2, ![a, 1]⟩ (multiReduction .add [1] ⟨1, ![a]⟩ src 0x00000000#32 h hφ hacc) hc (ix2 r u)
      = ∑ k : Fin b, src (ix2 r k) :=
  (shapeCast_a_a1_apply _ hc r u).trans (laneSum_apply src h hφ hacc r)

/-- A row's largest entry kept as a column. -/
theorem colMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (r : Fin a) (u : Fin 1) :
    shapeCast ⟨2, ![a, 1]⟩ (multiReduction .maximumf [1] ⟨1, ![a]⟩ src 0xFF800000#32 h hφ hacc) hc (ix2 r u)
      = (Finset.univ : Finset (Fin b)).fold max (Ideal.ofBits .f32 0xFF800000#32) (fun k => src (ix2 r k)) :=
  (shapeCast_a_a1_apply _ hc r u).trans (laneMax_apply src h hφ hacc r)

/-! ## The reciprocal of one plus the row's total weight -/

theorem pay1_at (v0 : Vec Ideal S400x10000 .f32) (r : Fin 400) (z : Fin 1) :
    k0_pay1 (F := Ideal) v0 (ix2 r z) = Ideal.div one ((∑ k : Fin 10000, v0 (ix2 r k)) + one) := by
  unfold k0_pay1
  rw [divf_apply, addf_apply, broadcast_apply]
  exact congrArg (fun t => Ideal.div one (t + one)) (colSum_apply v0 _ _ rfl _ r z)

/-- The same reciprocal spread over the 128 lanes of the row. -/
theorem pay2_at (v0 : Vec Ideal S400x10000 .f32) (r : Fin 400) (c : Fin 128) :
    k0_pay2 (F := Ideal) v0 (ix2 r c) = Ideal.div one ((∑ k : Fin 10000, v0 (ix2 r k)) + one) := by
  unfold k0_pay2
  rw [shapeCast_self, shapeCast_self]
  exact (broadcastTo_a1_ab_apply _ _ r c).trans (pay1_at v0 r 0)

/-! ## One layer at an index -/

theorem pay3_at (v0 : Vec Ideal S400x10000 .f32) (v20 : Vec Ideal S10000x128 .f32) (v26 : Vec Ideal S400x128 .f32)
    (v27 v30 : Vec Ideal S128x128 .f32) (r : Fin 400) (c : Fin 128) :
    k0_pay3 (F := Ideal) v0 v20 v26 v27 v30 (ix2 r c)
      = max ((∑ k : Fin 128, v26 (ix2 r k) * v27 (ix2 k c))
            + ∑ k : Fin 128, ((∑ j : Fin 10000, v0 (ix2 r j) * v20 (ix2 j k)) * Ideal.div one ((∑ j : Fin 10000, v0 (ix2 r j)) + one)) * v30 (ix2 k c)) zero := by
  unfold k0_pay3
  rw [shapeCast_self, shapeCast_self, shapeCast_self, maximumf_apply, addf_apply, broadcast_apply]
  refine congrArg₂ (fun s t => max (s + t) zero) (mm2_apply v26 v27 r c) ((mm2_apply _ v30 r c).trans ?_)
  refine Finset.sum_congr rfl fun k _ => congrArg (fun t => t * v30 (ix2 k c)) ?_
  rw [mulf_apply]
  exact congrArg₂ (fun s t => s * t) (mm1_apply v0 v20 r k) ((broadcastTo_a1_ab_apply _ _ r k).trans (pay1_at v0 r 0))

/-! ## The row-wise log-softmax of the logits -/

/-- Whatever the logits x: the kernel's chain row maximum, exponentials of the differences, their sum, its logarithm,
    read at (r, c), is the log-softmax of row r at c. -/
theorem lsm_at (x : FVec Ideal S400x64 .f32) (r : Fin 400) (c : Fin 64) :
    subf x (broadcastTo S400x64
        (addf (shapeCast S400x1 (multiReduction .maximumf [1] S400 x 0xFF800000#32 reduces_S400x64_S400 (.inl rfl) rfl) shapeCasts_S400_S400x1)
          (log (shapeCast S400x1 (multiReduction .add [1] S400
            (exp (subf x (broadcastTo S400x64
              (shapeCast S400x1 (multiReduction .maximumf [1] S400 x 0xFF800000#32 reduces_S400x64_S400 (.inl rfl) rfl) shapeCasts_S400_S400x1)
              broadcasts_S400x1_S400x64)))
            0x00000000#32 reduces_S400x64_S400 (.inl rfl) rfl) shapeCasts_S400_S400x1)))
        broadcasts_S400x1_S400x64) (ix2 r c)
      = lsm (fun c' => x (ix2 r c')) c := by
  have hmax : ∀ u : Fin 1,
      shapeCast S400x1 (multiReduction .maximumf [1] S400 x 0xFF800000#32 reduces_S400x64_S400 (.inl rfl) rfl) shapeCasts_S400_S400x1 (ix2 r u)
        = rowmax (fun c' => x (ix2 r c')) := fun u => colMax_apply x _ _ rfl _ r u
  unfold lsm
  rw [subf_apply]
  refine congrArg (fun t => x (ix2 r c) - t) ?_
  refine (broadcastTo_a1_ab_apply _ _ r c).trans ?_
  rw [addf_apply]
  refine congrArg₂ (fun s t => s + t) (hmax 0) ?_
  refine congrArg Ideal.log ?_
  refine (colSum_apply _ _ _ rfl _ r 0).trans ?_
  refine Finset.sum_congr rfl fun c' _ => congrArg Ideal.exp ?_
  rw [subf_apply]
  exact congrArg (fun t => x (ix2 r c') - t) ((broadcastTo_a1_ab_apply _ _ r c').trans (hmax 0))

theorem pay4_at (v0 : Vec Ideal S400x10000 .f32) (v9 : Vec Ideal S400x128 .f32) (v10 : Vec Ideal S10000x128 .f32)
    (v15 : Vec Ideal S400x128 .f32) (v16 v19 : Vec Ideal S128x128 .f32) (v25 : Vec Ideal S128x64 .f32) (v28 : Vec Ideal S1x64 .f32)
    (r : Fin 400) (c : Fin 64) :
    k0_pay4 (F := Ideal) v0 v9 v10 v15 v16 v19 v25 v28 (ix2 r c)
      = lsm (fun c' : Fin 64 =>
          (∑ k : Fin 128, (max ((∑ k' : Fin 128, v15 (ix2 r k') * v16 (ix2 k' k))
              + ∑ k' : Fin 128, ((∑ j : Fin 10000, v0 (ix2 r j) * v10 (ix2 j k')) * v9 (ix2 r k')) * v19 (ix2 k' k)) zero) * v25 (ix2 k c'))
            + v28 (ix2 (0 : Fin 1) c')) c := by
  unfold k0_pay4
  rw [shapeCast_self, shapeCast_self, shapeCast_self, shapeCast_self]
  refine (lsm_at _ r c).trans ?_
  refine congrArg (fun l => lsm l c) (funext fun c' => ?_)
  rw [addf_apply]
  refine congrArg₂ (fun s t => s + t) ((mm3_apply _ v25 r c').trans ?_) (broadcastTo_1b_ab_apply v28 _ r c')
  refine Finset.sum_congr rfl fun k _ => congrArg (fun t => t * v25 (ix2 k c')) ?_
  rw [maximumf_apply, addf_apply, broadcast_apply]
  refine congrArg₂ (fun s t => max (s + t) zero) (mm2_apply v15 v16 r k) ((mm2_apply _ v19 r k).trans ?_)
  refine Finset.sum_congr rfl fun k' _ => congrArg (fun t => t * v19 (ix2 k' k)) ?_
  rw [mulf_apply]
  exact congrArg (fun s => s * v9 (ix2 r k')) (mm1_apply v0 v10 r k')

end Cert.KernelIdeal.PayAt

end
-- ==== Proof.KValue.lean ====
/-
  What the idealized kernel's result array holds: the specification's function of the launch arrays.

  Phase one: the piece point t stores into the hidden-layer scratch is, row by row, the first layer of the
  specification at rows 400·t … 400·t + 399 (the adjacency block times the features, times the reciprocal of one
  plus the row's total weight, through the second half of W1; the node's own features through the first half;
  relu), and the piece stored into the reciprocals' scratch is that reciprocal on every column. After 25 points
  the two scratch arrays are therefore the first layer and the reciprocals at every row. Phase two: the block
  point 25 + i writes is the second layer, the linear map, the bias and the log-softmax of rows 400·i … 400·i + 399,
  computed from the adjacency block and those two arrays.
-/
import proofs.«146354_g81527069213097_cont_9to1_m_921_19_alg».proof.Proof.KI.Frame
import proofs.«146354_g81527069213097_cont_9to1_m_921_19_alg».proof.Proof.PayAt
import proofs.«146354_g81527069213097_cont_9to1_m_921_19_alg».proof.Proof.KArrays
import proofs.«146354_g81527069213097_cont_9to1_m_921_19_alg».proof.Proof.Spec
import Idealize.ShloMosaic.Lib.Pipeline.Value

set_option maxRecDepth 16384

noncomputable section

open scoped BigOperators

namespace Cert.KernelIdeal.KValue

open Cert.KernelIdeal Cert.KernelIdeal.Gen Cert.KernelIdeal.Hand Cert.KernelIdeal.KArrays Cert.KernelIdeal.PayAt Cert.Sage
open Idealize.ShloMosaic Idealize.ShloMosaic.ValueIdx Idealize.ShloMosaic.TcCoe Idealize.SL.Sem
open Idealize.ShloMosaic.Pipeline (Dat)

/-! ## The payloads as the specification's terms, over any operands that read as the arrays -/

/-- One layer: if the operands read, on row r of the block and column cc, as row R of the adjacency adj, the rows
    h, and the two halves of the weight matrix W, the payload at (r, cc) is the specification's layer at (R, cc). -/
theorem pay3_layer (A0 : Vec Ideal S400x10000 .f32) (A1 : Vec Ideal S10000x128 .f32) (A2 : Vec Ideal S400x128 .f32)
    (A3 A4 : Vec Ideal S128x128 .f32) (adj : Fin 10000 → Fin 10000 → EReal) (h : Fin 10000 → Fin 128 → EReal)
    (W : Fin 128 → Fin 256 → EReal) (r : Fin 400) (cc : Fin 128) (R : Fin 10000)
    (h0 : ∀ j, A0 (ix2 r j) = adj R j) (h1 : ∀ j k, A1 (ix2 j k) = h j k) (h2 : ∀ k, A2 (ix2 r k) = h R k)
    (h3 : ∀ k, A3 (ix2 k cc) = W cc (lo k)) (h4 : ∀ k, A4 (ix2 k cc) = W cc (hi k)) :
    k0_pay3 (F := Ideal) A0 A1 A2 A3 A4 (ix2 r cc) = Sage.layer adj W h R cc := by
  rw [pay3_at]
  unfold Sage.layer Sage.agg Sage.inv
  simp only [h0, h1, h2, h3, h4]

/-- The reciprocal spread over the lanes, likewise. -/
theorem pay2_inv (A0 : Vec Ideal S400x10000 .f32) (adj : Fin 10000 → Fin 10000 → EReal) (r : Fin 400) (cc : Fin 128)
    (R : Fin 10000) (h0 : ∀ j, A0 (ix2 r j) = adj R j) :
    k0_pay2 (F := Ideal) A0 (ix2 r cc) = Sage.inv adj R := by
  rw [pay2_at]
  unfold Sage.inv
  simp only [h0]

/-- The second layer, the linear map, the bias and the log-softmax, likewise: H is the hidden layer, W its weight
    matrix, W3 and b3 the linear map and the bias. -/
theorem pay4_lsm (B0 : Vec Ideal S400x10000 .f32) (B9 : Vec Ideal S400x128 .f32) (B10 : Vec Ideal S10000x128 .f32)
    (B15 : Vec Ideal S400x128 .f32) (B16 B19 : Vec Ideal S128x128 .f32) (B25 : Vec Ideal S128x64 .f32) (B28 : Vec Ideal S1x64 .f32)
    (adj : Fin 10000 → Fin 10000 → EReal) (H : Fin 10000 → Fin 128 → EReal) (W : Fin 128 → Fin 256 → EReal)
    (W3 : Fin 64 → Fin 128 → EReal) (b3 : Fin 64 → EReal) (r : Fin 400) (cc : Fin 64) (R : Fin 10000)
    (h0 : ∀ j, B0 (ix2 r j) = adj R j) (h9 : ∀ k, B9 (ix2 r k) = Sage.inv adj R) (h10 : ∀ j k, B10 (ix2 j k) = H j k)
    (h15 : ∀ k, B15 (ix2 r k) = H R k) (h16 : ∀ k' k, B16 (ix2 k' k) = W k (lo k')) (h19 : ∀ k' k, B19 (ix2 k' k) = W k (hi k'))
    (h25 : ∀ k c', B25 (ix2 k c') = W3 c' k) (h28 : ∀ c', B28 (ix2 (0 : Fin 1) c') = b3 c') :
    k0_pay4 (F := Ideal) B0 B9 B10 B15 B16 B19 B25 B28 (ix2 r cc)
      = lsm (fun c' => (∑ k : Fin 128, Sage.layer adj W H R k * W3 c' k) + b3 c') cc := by
  rw [pay4_at]
  unfold Sage.layer Sage.agg
  simp only [h0, h9, h10, h15, h16, h19, h25, h28]

/-! ## Loads at an index -/

variable (m : (ℓ : Loc nD τ sig) → Buf (Elt Ideal) ℓ) (c : Dev nD)

theorem hz : (![0, 0] : Fin 2 → Nat) = fun _ => 0 := funext fun a => by fin_cases a <;> rfl

/-- A load of a rectangle of a rows and b columns at offsets off from a whole buffer holding X, read at (r, k): X at
    (off 0 + r, off 1 + k). -/
theorem load_at {n0 n1 a b : ℕ} (mr : Memref sig .tc .vmem ⟨2, ![n0, n1]⟩ .f32) (h : mr.IsWhole) (off : Fin 2 → Nat)
    (inb : ∀ ax, off ax + (![a, b] : Fin 2 → ℕ) ax ≤ (⟨2, ![n0, n1]⟩ : Shape).size ax) (X : Vec Ideal ⟨2, ![n0, n1]⟩ .f32)
    (r : Fin a) (k : Fin b) (R : Fin n0) (K : Fin n1) (hR : R.val = off 0 + r.val) (hK : K.val = off 1 + k.val) :
    View.readAt (Elt Ideal) mr.view (Rect.unit (s := ⟨2, ![n0, n1]⟩) off ![a, b] inb).toLoadRect (h.unread X) (ix2 r k) = X (ix2 R K) := by
  rw [View.readAt_apply, h.read_unread]
  refine congrArg X (funext fun ax => Fin.ext ?_)
  match ax with
  | ⟨0, _⟩ => show off 0 + 1 * r.val = R.val; omega
  | ⟨1, _⟩ => show off 1 + 1 * k.val = K.val; omega

/-! ## Phase one: the two scratch arrays -/

/-- The first layer as a function of the hidden-layer scratch's index. -/
def GH : S10000x128.Idx → EReal := fun y =>
  Sage.layer (adjF m c) (W1F m c) (xF m c) ⟨(y 0).val, idx2_lt0 y⟩ ⟨(y 1).val, idx2_lt1 y⟩

/-- The reciprocals as a function of the reciprocals' scratch's index (the same on every column). -/
def GI : S10000x128.Idx → EReal := fun y => Sage.inv (adjF m c) ⟨(y 0).val, idx2_lt0 y⟩

/-- In phase one the adjacency block at point t, row r, is row 400·t + r of the adjacency. -/
theorem adj_rowA (t : Fin cfg0.N) (ht : t.val < 25) (r : Fin 400) (hR : 400 * t.val + r.val < 10000) (j : Fin 10000) :
    (iblk m c 0 t : S400x10000.Idx → EReal) (ix2 r j) = adjF m c ⟨400 * t.val + r.val, hR⟩ j :=
  (iblk0_at m c t r j).trans (congrArg (fun R => adjF m c R j) (Fin.ext (by
    show 400 * (t.val % 25) + r.val = 400 * t.val + r.val
    rw [Nat.mod_eq_of_lt ht])))

/-- Phase one's piece for the hidden-layer scratch is the first layer on its rows. -/
theorem pieceH_spec (t : Fin cfg0.N) (ht : t.val < 25) :
    ∀ p ∈ (runAt m c t ht).1, ∀ x : p.1.shape.Idx, p.2 x = GH m c (p.1.emb x) := by
  intro p hp x
  unfold runAt runA at hp
  dsimp only at hp
  simp only [List.mem_singleton] at hp
  subst hp
  obtain ⟨r, cc, rfl⟩ : ∃ (r : Fin 400) (cc : Fin 128), x = ix2 r cc := ⟨x 0, x 1, eq_ix2 x⟩
  have e0 : k0_off1 (grid0.coords t) 0 = 400 * t.val := by rw [hoffA t ht]; rfl
  have e1 : k0_off1 (grid0.coords t) 1 = 0 := by rw [hoffA t ht]; rfl
  have hRlt : 400 * t.val + r.val < 10000 := by have := r.isLt; omega
  dsimp only
  refine (pay3_layer _ _ _ _ _ (adjF m c) (xF m c) (W1F m c) r cc ⟨400 * t.val + r.val, hRlt⟩ ?_ ?_ ?_ ?_ ?_).trans ?_
  · intro j
    exact (load_at (ms0 t) (hs0 t) ![0, 0] _ (iblk m c 0 t) r j r j (by simp) (by simp)).trans (adj_rowA m c t ht r hRlt j)
  · intro j k
    exact (load_at (ms1 t) (hs1 t) ![0, 0] _ (iblk m c 1 t) j k j k (by simp) (by simp)).trans (iblk1_at m c t j k)
  · intro k
    exact (load_at (ms1 t) (hs1 t) (k0_off1 (grid0.coords t)) _ (iblk m c 1 t) r k ⟨400 * t.val + r.val, hRlt⟩ k
      (by rw [e0]) (by rw [e1]; simp)).trans (iblk1_at m c t _ k)
  · intro k
    exact (load_at (ms2 t) (hs2 t) ![0, 0] _ (iblk m c 2 t) k cc k cc (by simp) (by simp)).trans (iblk2_at m c t k cc)
  · intro k
    exact (load_at (ms3 t) (hs3 t) ![0, 0] _ (iblk m c 3 t) k cc k cc (by simp) (by simp)).trans (iblk3_at m c t k cc)
  · unfold GH
    refine congrArg₂ (Sage.layer (adjF m c) (W1F m c) (xF m c)) (Fin.ext ?_) (Fin.ext ?_)
    · show 400 * t.val + r.val = k0_off1 (grid0.coords t) 0 + 1 * r.val
      rw [e0]; omega
    · show cc.val = k0_off1 (grid0.coords t) 1 + 1 * cc.val
      rw [e1]; omega

/-- Phase one's piece for the reciprocals' scratch is the reciprocal of its rows, on every column. -/
theorem pieceI_spec (t : Fin cfg0.N) (ht : t.val < 25) :
    ∀ p ∈ (runAt m c t ht).2.1, ∀ x : p.1.shape.Idx, p.2 x = GI m c (p.1.emb x) := by
  intro p hp x
  unfold runAt runA at hp
  dsimp only at hp
  simp only [List.mem_singleton] at hp
  subst hp
  obtain ⟨r, cc, rfl⟩ : ∃ (r : Fin 400) (cc : Fin 128), x = ix2 r cc := ⟨x 0, x 1, eq_ix2 x⟩
  have e0 : k0_off1 (grid0.coords t) 0 = 400 * t.val := by rw [hoffA t ht]; rfl
  have hRlt : 400 * t.val + r.val < 10000 := by have := r.isLt; omega
  dsimp only
  refine (pay2_inv _ (adjF m c) r cc ⟨400 * t.val + r.val, hRlt⟩ ?_).trans ?_
  · intro j
    exact (load_at (ms0 t) (hs0 t) ![0, 0] _ (iblk m c 0 t) r j r j (by simp) (by simp)).trans (adj_rowA m c t ht r hRlt j)
  · unfold GI
    refine congrArg (Sage.inv (adjF m c)) (Fin.ext ?_)
    show 400 * t.val + r.val = k0_off1 (grid0.coords t) 0 + 1 * r.val
    rw [e0]; omega

/-- Every piece of the first n points agrees with the first layer. -/
theorem piecesH_spec : ∀ n : ℕ, n ≤ 25 → ∀ p ∈ piecesH m c n, ∀ x : p.1.shape.Idx, p.2 x = GH m c (p.1.emb x)
  | 0, _, p, hp, _ => absurd hp List.not_mem_nil
  | n + 1, hn, p, hp, x => by
    have hlt : n < 25 := by omega
    have e := piecesH_succ_lt m c ⟨n, by have := N50; omega⟩ hlt
    dsimp only at e
    rw [e] at hp
    rcases List.mem_append.mp hp with h | h
    · exact pieceH_spec m c ⟨n, by have := N50; omega⟩ hlt p h x
    · exact piecesH_spec n (by omega) p h x

/-- Every piece of the first n points agrees with the reciprocals. -/
theorem piecesI_spec : ∀ n : ℕ, n ≤ 25 → ∀ p ∈ piecesI m c n, ∀ x : p.1.shape.Idx, p.2 x = GI m c (p.1.emb x)
  | 0, _, p, hp, _ => absurd hp List.not_mem_nil
  | n + 1, hn, p, hp, x => by
    have hlt : n < 25 := by omega
    have e := piecesI_succ_lt m c ⟨n, by have := N50; omega⟩ hlt
    dsimp only at e
    rw [e] at hp
    rcases List.mem_append.mp hp with h | h
    · exact pieceI_spec m c ⟨n, by have := N50; omega⟩ hlt p h x
    · exact piecesI_spec n (by omega) p h x

/-- After phase one the hidden-layer scratch holds the first layer. -/
theorem XH_eq : XH m c = GH m c := by
  unfold XH
  exact funext fun y => View.read_writes_apply_of_pieces _ _ (GH m c) (piecesH m c 25) (piecesH_spec m c 25 le_rfl) y (coverH m c y)

/-- After phase one the reciprocals' scratch holds the reciprocals. -/
theorem XI_eq : XI m c = GI m c := by
  unfold XI
  exact funext fun y => View.read_writes_apply_of_pieces _ _ (GI m c) (piecesI m c 25) (piecesI_spec m c 25 le_rfl) y (coverI m c y)

/-! ## Phase two: the output block -/

/-- In phase two the slices' offsets are 400·(t − 25) rows down, column 0. -/
theorem hoffB : ∀ t : Fin cfg0.N, 25 ≤ t.val → k0_off2 (grid0.coords t) = ![400 * (t.val - 25), 0] := by
  decide +kernel

/-- In phase two the adjacency block at point t, row r, is row 400·(t − 25) + r of the adjacency. -/
theorem adj_rowB (t : Fin cfg0.N) (ht : 25 ≤ t.val) (r : Fin 400) (hR : 400 * (t.val - 25) + r.val < 10000) (j : Fin 10000) :
    (iblk m c 0 t : S400x10000.Idx → EReal) (ix2 r j) = adjF m c ⟨400 * (t.val - 25) + r.val, hR⟩ j :=
  (iblk0_at m c t r j).trans (congrArg (fun R => adjF m c R j) (Fin.ext (by
    show 400 * (t.val % 25) + r.val = 400 * (t.val - 25) + r.val
    have := t.isLt; have : cfg0.N = 50 := N_0; omega)))

/-- The block phase two leaves in the output's staging buffer at point t is the specification's result on rows
    400·(t − 25) … 400·(t − 25) + 399. -/
theorem outB_at (t : Fin cfg0.N) (ht : 25 ≤ t.val) (r : Fin 400) (cc : Fin 64) :
    (outB m c t : S400x64.Idx → EReal) (ix2 r cc)
      = Sage.out (xF m c) (adjF m c) (W1F m c) (W2F m c) (W3F m c) (b3F m c)
          ⟨400 * (t.val - 25) + r.val, by have := r.isLt; have := t.isLt; have : cfg0.N = 50 := N_0; omega⟩ cc := by
  have hR : 400 * (t.val - 25) + r.val < 10000 := by have := r.isLt; have := t.isLt; have : cfg0.N = 50 := N_0; omega
  have e0 : k0_off2 (grid0.coords t) 0 = 400 * (t.val - 25) := by rw [hoffB t ht]; rfl
  have e1 : k0_off2 (grid0.coords t) 1 = 0 := by rw [hoffB t ht]; rfl
  rw [outB_B m c t ht, View.read_writes_eq_canon _ _ _ (coverO m c t ht)]
  unfold runBt runB
  dsimp only
  rw [View.canon_unit_zero hz]
  unfold runB.sl.r
  refine (pay4_lsm _ _ _ _ _ _ _ _ (adjF m c) (Sage.layer (adjF m c) (W1F m c) (xF m c)) (W2F m c) (W3F m c) (b3F m c) r cc
    ⟨400 * (t.val - 25) + r.val, hR⟩ ?_ ?_ ?_ ?_ ?_ ?_ ?_ ?_).trans rfl
  · intro j
    exact (load_at (ms0 t) (hs0 t) ![0, 0] _ (iblk m c 0 t) r j r j (by simp) (by simp)).trans (adj_rowB m c t ht r hR j)
  · intro k
    exact (load_at scI (Memref.isWhole_whole _) (k0_off2 (grid0.coords t)) _ (XI m c) r k ⟨400 * (t.val - 25) + r.val, hR⟩ k
      (by rw [e0]) (by rw [e1]; simp)).trans ((congrFun (XI_eq m c) _).trans rfl)
  · intro j k
    exact (load_at scH (Memref.isWhole_whole _) ![0, 0] _ (XH m c) j k j k (by simp) (by simp)).trans ((congrFun (XH_eq m c) _).trans rfl)
  · intro k
    exact (load_at scH (Memref.isWhole_whole _) (k0_off2 (grid0.coords t)) _ (XH m c) r k ⟨400 * (t.val - 25) + r.val, hR⟩ k
      (by rw [e0]) (by rw [e1]; simp)).trans ((congrFun (XH_eq m c) _).trans rfl)
  · intro k' k
    exact (load_at (ms4 t) (hs4 t) ![0, 0] _ (iblk m c 4 t) k' k k' k (by simp) (by simp)).trans (iblk4_at m c t k' k)
  · intro k' k
    exact (load_at (ms5 t) (hs5 t) ![0, 0] _ (iblk m c 5 t) k' k k' k (by simp) (by simp)).trans (iblk5_at m c t k' k)
  · intro k c'
    exact (load_at (ms6 t) (hs6 t) ![0, 0] _ (iblk m c 6 t) k c' k c' (by simp) (by simp)).trans (iblk6_at m c t k c')
  · intro c'
    exact (load_at (ms7 t) (hs7 t) ![0, 0] _ (iblk m c 7 t) (0 : Fin 1) c' (0 : Fin 1) c' (by simp) (by simp)).trans (iblk7_at m c t 0 c')

end Cert.KernelIdeal.KValue

end
-- ==== Proof.KFinal.lean ====
/-
  The idealized kernel's result array after the run. The output window is written back at the 25 points of the
  second half of the grid, point t onto rows 400 (t - 25) … 400 (t - 25) + 399; what it writes there is, entry by
  entry, the two-layer network's log-softmax output at that row of the graph; the 25 blocks cover the array; so
  the array ends holding that output at every (row, class), and the six argument arrays end as launched.
-/
import proofs.«146354_g81527069213097_cont_9to1_m_921_19_alg».proof.Proof.KI.Frame
import proofs.«146354_g81527069213097_cont_9to1_m_921_19_alg».proof.Proof.KOut
import proofs.«146354_g81527069213097_cont_9to1_m_921_19_alg».proof.Proof.KArrays
import proofs.«146354_g81527069213097_cont_9to1_m_921_19_alg».proof.Proof.Spec
import proofs.«146354_g81527069213097_cont_9to1_m_921_19_alg».proof.Proof.KValue
import Idealize.ShloMosaic.Lib.Pipeline.Value

set_option maxRecDepth 16384

noncomputable section

namespace Cert.KernelIdeal.KFinal

open Cert.KernelIdeal Cert.KernelIdeal.Gen Cert.KernelIdeal.KOut Cert.KernelIdeal.KArrays
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The result array's contents: at (row, class) the network's output there. -/
def result (c : Dev nD) : Buf (Elt Ideal) ((c.tc : Thread nD τ).loc main_v0) :=
  fun j => Cert.Sage.out (xF m c) (adjF m c) (W1F m c) (W2F m c) (W3F m c) (b3F m c)
    ⟨((j : S10000x64.Idx) 0).val, idx2_lt0 (j : S10000x64.Idx)⟩ ⟨((j : S10000x64.Idx) 1).val, idx2_lt1 (j : S10000x64.Idx)⟩

/-- Each write-back writes the result read through the point's block. -/
theorem flushed_eq (c : Dev nD) (t : Fin cfg0.N) (hf : (cfg0.win 8).flush t = true) :
    (Hand.dats m 0 c).flushed 8 t = ((cfg0.win 8).blk t).view.read (Elt Ideal) (result m c) := by
  have ht : 25 ≤ t.val := (flush8 t).mp hf
  have key : ∀ (r : Fin 400) (cc : Fin 64), (Hand.outB m c t : S400x64.Idx → EReal) (ix2 r cc)
      = (((cfg0.win 8).blk t).view.read (Elt Ideal) (result m c) : S400x64.Idx → EReal) (ix2 r cc) := by
    intro r cc
    rw [Cert.KernelIdeal.KValue.outB_at m c t ht r cc, blk8_read_at c (result m c) t ht r cc]
    rfl
  show (cfg0.win 8).cut (grid0.coords t) ((Hand.dats m 0 c).after 8 t) = _
  rw [Hand.after_8]
  funext x
  obtain ⟨r, cc, rfl⟩ : ∃ (r : Fin 400) (cc : Fin 64), (x : S400x64.Idx) = ix2 r cc := ⟨x 0, x 1, eq_ix2 x⟩
  exact key r cc

/-- The write-backs cover the array: it ends holding the result. -/
theorem final (c : Dev nD) : (Hand.dats m 0 c).arrAt 8 cfg0.N = result m c :=
  (Hand.dats m 0 c).arrAt_eq_of_cover 8 (result m c) (flushed_eq m c) (cover8 c)

/-- The run, read: the result array at the network's output, the six arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 8).trans (final m c),
      ((h c).1 1).trans (((Hand.dats m 0 c).arrAt_in 1 rfl _).trans ((Hand.A_eq m c 1).trans (V_main_arg0 m c))),
      ((h c).1 0).trans (((Hand.dats m 0 c).arrAt_in 0 rfl _).trans ((Hand.A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (Hand.run_main m ρ)
end Cert.KernelIdeal.KFinal

end
-- ==== Proof.Algebra.lean ====
/-
  The reference's spelling of the two-layer neighbour-mean network with a row-wise log-softmax equals the
  kernel's spelling, element by element on the extended reals, when every input is a real number and no
  row's divisor 1 + (the row's total weight) is zero.

  The facts, in order: the three words denote 1, 0 and minus infinity; a quotient by a nonzero divisor is
  the product with the reciprocal (needs only that the divisor is not zero); the sum over 256 joined
  columns is the sum over the first 128 plus the sum over the last 128; the maximum against minus infinity
  is the identity; finite sums, products, maxima and quotients by nonzero reals of reals are real (so the
  layers, the logits and the row maximum are real: here the extended reals' infinities must be kept out,
  because (a - m) - s = a - (m + s) fails at them); the exponential of a real is a positive real and a
  nonempty sum of positive reals is positive, so its logarithm is real; and for reals
  (a - m) - s = a - (m + s).
-/
import proofs.«146354_g81527069213097_cont_9to1_m_921_19_alg».proof.Proof.Spec

noncomputable section

open scoped BigOperators

namespace Cert.SageAlg

open Idealize.ShloMosaic Cert.Sage

/-- Every entry of a matrix is (the coercion of) a real number. -/
def Real2 {a b : Nat} (f : Fin a → Fin b → EReal) : Prop := ∀ i k, ∃ r : ℝ, f i k = (r : EReal)
/-- Every entry of a row is (the coercion of) a real number. -/
def Real1 {a : Nat} (f : Fin a → EReal) : Prop := ∀ i, ∃ r : ℝ, f i = (r : EReal)

/-- An extended real that is a real number. -/
def IsReal (x : EReal) : Prop := ∃ r : ℝ, x = (r : EReal)

/-! ### The three words -/

theorem zero_eq : Cert.Sage.zero = 0 := Ideal.ofBits_zero_f32

theorem one_eq : Cert.Sage.one = 1 := by
  simp [Ideal.ofBits, Ideal.ieee, -EReal.coe_mul]; norm_num

theorem ninf_eq : Cert.Sage.ninf = ⊥ := by
  simp [Ideal.ofBits, Ideal.ieee]

/-! ### Reals are closed under the operations that occur -/

theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.inv {x : EReal} (hx : IsReal x) : IsReal x⁻¹ := by
  obtain ⟨a, rfl⟩ := hx; exact ⟨a⁻¹, (EReal.coe_inv a).symm⟩

theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

theorem IsReal.ne_bot {x : EReal} (hx : IsReal x) : x ≠ ⊥ := by
  obtain ⟨a, rfl⟩ := hx; exact EReal.coe_ne_bot a

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of max from minus infinity over a nonempty family of reals is real. -/
theorem IsReal.fold_max {ι : Type*} (s : Finset ι) (f : ι → EReal) (hf : ∀ i ∈ s, IsReal (f i))
    (hs : s.Nonempty) : IsReal (s.fold Max.max ⊥ f) := by
  classical
  induction s using Finset.induction_on with
  | empty => exact absurd hs Finset.not_nonempty_empty
  | insert a s ha ih =>
    rw [Finset.fold_insert ha]
    have hfa := hf a (Finset.mem_insert_self a s)
    rcases s.eq_empty_or_nonempty with he | hne
    · subst he; rw [Finset.fold_empty, max_bot_right]; exact hfa
    · exact hfa.max (ih (fun i hi => hf i (Finset.mem_insert_of_mem hi)) hne)

/-! ### Quotient and reciprocal -/

/-- Off a zero divisor, the quotient is the product with the reciprocal of the divisor taken as 1 / b.
    Only b ≠ 0 is used. -/
theorem mul_div_one {a b : EReal} (hb : b ≠ 0) : a * Ideal.div 1 b = Ideal.div a b := by
  rw [Ideal.div, Ideal.div, if_neg hb, if_neg hb, one_mul]

theorem IsReal.div_one {b : EReal} (hb : IsReal b) (h0 : b ≠ 0) : IsReal (Ideal.div 1 b) := by
  rw [Ideal.div, if_neg h0, one_mul]; exact hb.inv

/-! ### The neighbours' mean -/

section Layers

variable (adj : Fin 10000 → Fin 10000 → EReal)

/-- The reference's divisor, with the words read: the row's total weight plus one. -/
theorem den_eq (i : Fin 10000) : Cert.SageRef.den adj i = (∑ k : Fin 10000, adj i k) + Cert.Sage.one := by
  rw [Cert.SageRef.den, zero_eq, zero_add]

/-- The weighted sum over the divisor is the weighted sum times the divisor's reciprocal. Only the divisor's being
    nonzero is used: neither h nor adj need be real. -/
theorem agg_eq (h : Fin 10000 → Fin 128 → EReal) (i : Fin 10000)
    (hden : (Cert.Sage.zero + ∑ k : Fin 10000, adj i k) + Cert.Sage.one ≠ Cert.Sage.zero) (c : Fin 128) :
    Cert.SageRef.agg adj h i c = Cert.Sage.agg adj h i c := by
  have h0 : (∑ k : Fin 10000, adj i k) + Cert.Sage.one ≠ 0 := by
    rw [zero_eq, zero_add] at hden; exact hden
  rw [Cert.SageRef.agg, Cert.Sage.agg, Cert.Sage.inv, den_eq]
  rw [one_eq] at h0 ⊢
  exact (mul_div_one h0).symm

/-- A sum over 256 columns is the sum over the first 128 plus the sum over the last 128. -/
theorem sum_256 (f : Fin 256 → EReal) :
    ∑ k : Fin 256, f k = (∑ k : Fin 128, f (lo k)) + ∑ k : Fin 128, f (hi k) := by
  have := Fin.sum_univ_add (a := 128) (b := 128) f
  exact this

theorem cat_lo (h : Fin 10000 → Fin 128 → EReal) (i : Fin 10000) (k : Fin 128) :
    Cert.SageRef.cat adj h i (lo k) = h i k := by
  rw [Cert.SageRef.cat, dif_pos (show (lo k).val < 128 from k.isLt)]

theorem cat_hi (h : Fin 10000 → Fin 128 → EReal) (i : Fin 10000) (k : Fin 128) :
    Cert.SageRef.cat adj h i (hi k) = Cert.SageRef.agg adj h i k := by
  have hk : ¬ (hi k).val < 128 := by simp only [hi]; omega
  rw [Cert.SageRef.cat, dif_neg hk]
  congr 1
  apply Fin.ext
  simp only [hi]; omega

/-- One layer, the two spellings, as functions of the node and the column. -/
theorem layer_eq (W : Fin 128 → Fin 256 → EReal) (h : Fin 10000 → Fin 128 → EReal)
    (hden : ∀ i : Fin 10000, (Cert.Sage.zero + ∑ k : Fin 10000, adj i k) + Cert.Sage.one ≠ Cert.Sage.zero) :
    Cert.SageRef.layer adj W h = Cert.Sage.layer adj W h := by
  funext i c
  have hA : (∑ k : Fin 128, Cert.SageRef.cat adj h i (lo k) * W c (lo k)) = ∑ k : Fin 128, h i k * W c (lo k) :=
    Finset.sum_congr rfl fun k _ => by rw [cat_lo]
  have hB : (∑ k : Fin 128, Cert.SageRef.cat adj h i (hi k) * W c (hi k))
      = ∑ k : Fin 128, Cert.Sage.agg adj h i k * W c (hi k) :=
    Finset.sum_congr rfl fun k _ => by rw [cat_hi, agg_eq adj h i (hden i)]
  rw [Cert.SageRef.layer, Cert.Sage.layer, sum_256, hA, hB]

/-- A layer of reals is real, when no divisor is zero. -/
theorem layer_real (W : Fin 128 → Fin 256 → EReal) (h : Fin 10000 → Fin 128 → EReal)
    (hadj : Real2 adj) (hW : Real2 W) (hh : Real2 h)
    (hden : ∀ i : Fin 10000, (Cert.Sage.zero + ∑ k : Fin 10000, adj i k) + Cert.Sage.one ≠ Cert.Sage.zero) :
    Real2 (Cert.Sage.layer adj W h) := by
  intro i c
  have hsum : IsReal ((∑ k : Fin 10000, adj i k) + Cert.Sage.one) :=
    (IsReal.sum _ _ fun k _ => hadj i k).add (one_eq ▸ IsReal.one)
  have h0 : (∑ k : Fin 10000, adj i k) + Cert.Sage.one ≠ 0 := by
    have := hden i; rw [zero_eq, zero_add] at this; exact this
  have hinv : IsReal (Cert.Sage.inv adj i) := by
    rw [Cert.Sage.inv]
    rw [one_eq] at hsum h0 ⊢
    exact hsum.div_one h0
  have hagg : ∀ k : Fin 128, IsReal (Cert.Sage.agg adj h i k) := fun k => by
    rw [Cert.Sage.agg]
    exact (IsReal.sum _ _ fun j _ => (show IsReal (adj i j) from hadj i j).mul (hh j k)).mul hinv
  show IsReal (Cert.Sage.layer adj W h i c)
  rw [Cert.Sage.layer]
  refine IsReal.max (IsReal.add ?_ ?_) (zero_eq ▸ IsReal.zero)
  · exact IsReal.sum _ _ fun k _ => (show IsReal (h i k) from hh i k).mul (hW c _)
  · exact IsReal.sum _ _ fun k _ => (hagg k).mul (hW c _)

end Layers

/-! ### The logits -/

theorem logits_eq (x : Fin 10000 → Fin 128 → EReal) (adj : Fin 10000 → Fin 10000 → EReal) (W1 W2 : Fin 128 → Fin 256 → EReal)
    (W3 : Fin 64 → Fin 128 → EReal) (b3 : Fin 64 → EReal)
    (hden : ∀ i : Fin 10000, (Cert.Sage.zero + ∑ k : Fin 10000, adj i k) + Cert.Sage.one ≠ Cert.Sage.zero) :
    Cert.SageRef.logits x adj W1 W2 W3 b3 = Cert.Sage.logits x adj W1 W2 W3 b3 := by
  funext i c
  rw [Cert.SageRef.logits, Cert.Sage.logits, layer_eq adj W1 x hden, layer_eq adj W2 _ hden]

theorem logits_real (x : Fin 10000 → Fin 128 → EReal) (adj : Fin 10000 → Fin 10000 → EReal) (W1 W2 : Fin 128 → Fin 256 → EReal)
    (W3 : Fin 64 → Fin 128 → EReal) (b3 : Fin 64 → EReal)
    (hx : Real2 x) (hadj : Real2 adj) (hW1 : Real2 W1) (hW2 : Real2 W2) (hW3 : Real2 W3) (hb3 : Real1 b3)
    (hden : ∀ i : Fin 10000, (Cert.Sage.zero + ∑ k : Fin 10000, adj i k) + Cert.Sage.one ≠ Cert.Sage.zero)
    (i : Fin 10000) : Real1 (Cert.Sage.logits x adj W1 W2 W3 b3 i) := by
  intro c
  have h1 := layer_real adj W1 x hadj hW1 hx hden
  have h2 := layer_real adj W2 _ hadj hW2 h1 hden
  show IsReal (Cert.Sage.logits x adj W1 W2 W3 b3 i c)
  rw [Cert.Sage.logits]
  exact (IsReal.sum _ _ fun k _ => (show IsReal _ from h2 i k).mul (hW3 c k)).add (hb3 c)

/-! ### The log-softmax of a real row -/

/-- The maximum against minus infinity is the identity: the two row maxima agree on every row. -/
theorem rowmax_eq (l : Fin 64 → EReal) : Cert.SageRef.rowmax l = Cert.Sage.rowmax l := by
  rw [Cert.SageRef.rowmax, Cert.Sage.rowmax, ninf_eq, max_bot_left]

theorem rowmax_real (l : Fin 64 → EReal) (hl : Real1 l) : IsReal (Cert.Sage.rowmax l) := by
  rw [Cert.Sage.rowmax, ninf_eq]
  exact IsReal.fold_max _ _ (fun i _ => hl i) Finset.univ_nonempty

/-- For a real row the two spellings of the log-softmax agree: every term is real — the exponentials are
    positive reals, their sum over the 64 classes is a positive real, its logarithm a real — and on the
    reals (a - m) - s = a - (m + s). -/
theorem lsm_eq (l : Fin 64 → EReal) (hl : Real1 l) (c : Fin 64) :
    Cert.SageRef.lsm l c = Cert.Sage.lsm l c := by
  rw [Cert.SageRef.lsm, Cert.Sage.lsm, rowmax_eq, zero_eq, zero_add]
  obtain ⟨m, hm⟩ := rowmax_real l hl
  have hl' : ∀ c', ∃ r : ℝ, l c' = (r : EReal) := hl
  choose a ha using hl'
  have hexp : ∀ c' : Fin 64, Ideal.exp (l c' - Cert.Sage.rowmax l) = ((Real.exp (a c' - m) : ℝ) : EReal) := fun c' => by
    rw [ha c', hm, ← EReal.coe_sub, Ideal.exp_coe]
  have hsum : (∑ c' : Fin 64, Ideal.exp (l c' - Cert.Sage.rowmax l))
      = ((∑ c' : Fin 64, Real.exp (a c' - m) : ℝ) : EReal) := by
    rw [coe_sum]; exact Finset.sum_congr rfl fun c' _ => hexp c'
  have hpos : 0 < ∑ c' : Fin 64, Real.exp (a c' - m) :=
    Finset.sum_pos (fun c' _ => Real.exp_pos _) Finset.univ_nonempty
  rw [hsum, Ideal.log_coe, if_neg (not_le.mpr hpos), ha c, hm]
  rw [← EReal.coe_sub, ← EReal.coe_sub, ← EReal.coe_add, ← EReal.coe_sub]
  congr 1; ring

/-! ### The result -/

theorem out_eq (x : Fin 10000 → Fin 128 → EReal) (adj : Fin 10000 → Fin 10000 → EReal) (W1 W2 : Fin 128 → Fin 256 → EReal)
    (W3 : Fin 64 → Fin 128 → EReal) (b3 : Fin 64 → EReal)
    (hx : Real2 x) (hadj : Real2 adj) (hW1 : Real2 W1) (hW2 : Real2 W2) (hW3 : Real2 W3) (hb3 : Real1 b3)
    (hden : ∀ i : Fin 10000, (Cert.Sage.zero + ∑ k : Fin 10000, adj i k) + Cert.Sage.one ≠ Cert.Sage.zero)
    (i : Fin 10000) (c : Fin 64) :
    Cert.SageRef.out x adj W1 W2 W3 b3 i c = Cert.Sage.out x adj W1 W2 W3 b3 i c := by
  rw [Cert.SageRef.out, Cert.Sage.out, logits_eq x adj W1 W2 W3 b3 hden]
  exact lsm_eq _ (logits_real x adj W1 W2 W3 b3 hx hadj hW1 hW2 hW3 hb3 hden i) c

end Cert.SageAlg

end
-- ==== Proof.PreFacts.lean ====
/-
  The printed precondition, decoded. It is a conjunction of seven facts: for each of the six input arrays,
  every entry's absolute value is below plus infinity; and for every row of the adjacency matrix, the zero
  word plus the row's sum, plus the one word, is not the zero word. On the extended reals an entry whose
  absolute value max x (-x) is below plus infinity is neither infinity, that is, a real number; so the six
  arrays read by coordinates are real, and the seventh fact is the statement that no row's divisor is zero.
-/
import proofs.«146354_g81527069213097_cont_9to1_m_921_19_alg».proof.Pre_finite_inputs
import proofs.«146354_g81527069213097_cont_9to1_m_921_19_alg».proof.Proof.Algebra
import Idealize.ShloMosaic.Lib.ReduceAll
import Idealize.ShloMosaic.Lib.IdealHost

noncomputable section

open scoped BigOperators

namespace Cert.PreFacts

open Idealize.ShloMosaic Cert.Pre_finite_inputs

/-- A rank-2 array read by its two coordinates. -/
abbrev rd2 {a b : Nat} (v : (⟨2, ![a, b]⟩ : Shape).Idx → EReal) : Fin a → Fin b → EReal := fun i k => v (ValueIdx.ix2 i k)
/-- A rank-1 array read by its coordinate. -/
abbrev rd1 {a : Nat} (v : (⟨1, ![a]⟩ : Shape).Idx → EReal) : Fin a → EReal := fun i => v (ValueIdx.ix1 i)

/-- The scalar shape has one index. -/
instance : Subsingleton S_.Idx := ⟨fun a b => funext fun d => d.elim0⟩

/-- The word 0x7F800000 denotes plus infinity. -/
theorem inf_eq : Ideal.ofBits .f32 0x7F800000#32 = ⊤ := by
  simp [Ideal.ofBits, Ideal.ieee]

theorem ofBool_eq_one (b : Bool) : BitVec.ofBool b = 1#1 ↔ b = true := by cases b <;> decide

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  rw [inf_eq] at h
  unfold Ideal.cmp at h
  rw [ofBool_eq_one] at h
  have hlt : max x (-x) < ⊤ := of_decide_eq_true h
  induction x using EReal.rec with
  | bot => rw [EReal.neg_bot, max_eq_right bot_le] at hlt; exact absurd hlt (lt_irrefl _)
  | top => rw [max_eq_left le_top] at hlt; exact absurd hlt (lt_irrefl _)
  | coe r => exact ⟨r, rfl⟩

/-- One array's conjunct: all of |a| < +inf, read back at an index. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) := by
  have hx := Host.reduce_andi_all _ _ hr hu ValueIdx.ix0 e i
  rw [ValueIdx.cmpf_apply, ValueIdx.broadcastInDim_scalar_apply, ValueIdx.constant_apply] at hx
  exact real_of_abs_lt (a i) hx

/-- The inserted index of a row reduction of a square matrix: row i, column k. -/
theorem lift_eq (h : S10000x10000.Reduces [1] S10000) (i : Fin 10000) (k : Fin 10000) :
    h.lift (ValueIdx.ix1 i) k = ValueIdx.ix2 i k := by
  funext a
  match a with
  | ⟨0, _⟩ => exact Fin.ext rfl
  | ⟨1, _⟩ => exact Fin.ext rfl

theorem of_pre [Cert.Pre_finite_inputs.Facts] (a0 : FVec Ideal S10000x128 .f32) (a1 : FVec Ideal S10000x10000 .f32) (a2 a3 : FVec Ideal S128x256 .f32) (a4 : FVec Ideal S64x128 .f32) (a5 : FVec Ideal S64 .f32)
    (h : Cert.Pre_finite_inputs.fn (F := Ideal) a0 a1 a2 a3 a4 a5 = (fun _ => 1#1)) :
    Cert.SageAlg.Real2 (rd2 a0) ∧ Cert.SageAlg.Real2 (rd2 a1) ∧ Cert.SageAlg.Real2 (rd2 a2) ∧ Cert.SageAlg.Real2 (rd2 a3) ∧ Cert.SageAlg.Real2 (rd2 a4) ∧ Cert.SageAlg.Real1 (rd1 a5)
      ∧ ∀ i : Fin 10000, (Cert.Sage.zero + ∑ k : Fin 10000, rd2 a1 i k) + Cert.Sage.one ≠ Cert.Sage.zero := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨h0, h1⟩, h2⟩, h3⟩, h4⟩, h5⟩, h6⟩ := e
  refine ⟨fun i k => real_of_all a0 _ _ _ h0 _, fun i k => real_of_all a1 _ _ _ h1 _, fun i k => real_of_all a2 _ _ _ h2 _,
    fun i k => real_of_all a3 _ _ _ h3 _, fun i k => real_of_all a4 _ _ _ h4 _, fun i => real_of_all a5 _ _ _ h5 _, fun i => ?_⟩
  have hx := Host.reduce_andi_all _ _ _ _ ValueIdx.ix0 h6 (ValueIdx.ix1 i)
  have hred : S10000x10000.Reduces [1] S10000 := by decide
  rw [ValueIdx.cmpf_apply, ValueIdx.addf_apply, ValueIdx.broadcastInDim_scalar_apply, ValueIdx.broadcastInDim_scalar_apply,
    ValueIdx.constant_apply, ValueIdx.constant_apply, ValueIdx.hostReduceAdd_apply, ValueIdx.constant_apply,
    Ideal.hostReduceAdd_single _ hred] at hx
  have hsum : (∑ k : Fin (S10000x10000.size 1), a1 (hred.lift (ValueIdx.ix1 i) k)) = ∑ k : Fin 10000, rd2 a1 i k :=
    Finset.sum_congr rfl fun k _ => congrArg a1 (lift_eq hred i k)
  rw [hsum] at hx
  have hne : decide ((Cert.Sage.zero + ∑ k : Fin 10000, rd2 a1 i k) + Cert.Sage.one ≠ Cert.Sage.zero) = true :=
    (ofBool_eq_one _).1 hx
  exact of_decide_eq_true hne

end Cert.PreFacts

end
-- ==== Proof.RefValue.lean ====
/-
  The reference program's result, one element at a time.

  The reference computes, for a graph of 10000 nodes with feature rows x (128 columns) and edge weights adj,
  two layers  h ↦ relu ([h | mean of the neighbours' rows] · Wᵀ)  — the neighbours' mean is the weighted sum of the
  rows divided by (0 + the row's total weight) + 1, the joined row has 256 columns, the product runs over all 256 —,
  then the logits  h₂ · W3ᵀ + b3  and a row-wise log-softmax  (l - max) - log (0 + Σ exp (l - max)),  the maximum
  taken as  max (-inf) (fold of max from -inf).  Each operation of the program is read at one index: a product of
  matrices as the sum over the contracted index, a row sum as the initial value plus the sum over the row, a joined
  row by the side its column falls on, a transposed matrix at the swapped index, a broadcast at the index it copies,
  the row maximum as a fold over the row.  The composition of these readings is the function SageRef.out of the
  six argument arrays; the run of the program then says that every execution ends with the result buffer equal to
  that function, the arguments unchanged.
-/
import proofs.«146354_g81527069213097_cont_9to1_m_921_19_alg».proof.Proof.RefRead
import proofs.«146354_g81527069213097_cont_9to1_m_921_19_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- A matrix given over two-coordinate indices, as a function of the row and the column. -/
abbrev rd2 {a b : Nat} (v : (⟨2, ![a, b]⟩ : Shape).Idx → EReal) : Fin a → Fin b → EReal := fun i k => v (ValueIdx.ix2 i k)
/-- A vector given over one-coordinate indices, as a function of the position. -/
abbrev rd1 {a : Nat} (v : (⟨1, ![a]⟩ : Shape).Idx → EReal) : Fin a → EReal := fun i => v (ValueIdx.ix1 i)

section Layers

variable (x0 : S10000x128.Idx → EReal) (x1 : S10000x10000.Idx → EReal) (x2 x3 : S128x256.Idx → EReal)
  (x4 : S64x128.Idx → EReal) (x5 : S64.Idx → EReal)

/-! ## The first layer -/

/-- The divisor of row i, broadcast along the 128 columns: (0 + the row's total weight) + 1. -/
theorem den1_at (i : Fin 10000) (c : Fin 128) :
    val_main_v5 (F := Ideal) x1 (ValueIdx.ix2 i c) = Cert.SageRef.den (rd2 x1) i := by
  rw [val_main_v5_apply, val_main_v4_apply, val_main_v2_apply, val_main_v1_apply, val_main_v3_apply, val_main_cst_0_apply,
    val_main_cst_apply]
  unfold Cert.SageRef.den
  simp only [Ideal.addf_def, Ideal.ofBits_def]
  refine congrArg (· + _) (congrArg (_ + ·) (Finset.sum_congr rfl fun k _ => congrArg x1 ?_))
  exact funext fun a => Fin.ext (by match a with | ⟨0, _⟩ => rfl | ⟨1, _⟩ => rfl)

/-- The neighbours' mean of the input rows at (i, c): the weighted sum over the divisor. -/
theorem agg1_at (i : Fin 10000) (c : Fin 128) :
    val_main_v6 (F := Ideal) x0 x1 (ValueIdx.ix2 i c) = Cert.SageRef.agg (rd2 x1) (rd2 x0) i c := by
  rw [val_main_v6_apply, val_main_v0_apply, den1_at]
  unfold Cert.SageRef.agg
  simp only [Ideal.hostDivf_def]
  refine congrArg (Ideal.div · _) (Finset.sum_congr rfl fun k _ => ?_)
  exact congrArg₂ (· * ·)
    (congrArg x1 (funext fun a => Fin.ext (by match a with | ⟨0, _⟩ => rfl | ⟨1, _⟩ => rfl)))
    (congrArg x0 (funext fun a => Fin.ext (by match a with | ⟨0, _⟩ => rfl | ⟨1, _⟩ => rfl)))

/-- The joined row at column k: the node's own row on the first 128 columns, the neighbours' mean on the last 128. -/
theorem cat1_at (i : Fin 10000) (k : Fin 256) :
    val_main_v7 (F := Ideal) x0 x1 (ValueIdx.ix2 i k) = Cert.SageRef.cat (rd2 x1) (rd2 x0) i k := by
  unfold val_main_v7 Cert.SageRef.cat
  by_cases hk : k.val < 128
  · rw [dif_pos hk]
    exact concatenate_pair_apply_left (1 : Fin S10000x256.rank) x0 (val_main_v6 (F := Ideal) x0 x1)
      concatenates_S10000x128_S10000x128_S10000x256_d1 (ValueIdx.ix2 i k) rfl (ValueIdx.ix2 i ⟨k.val, hk⟩)
      (fun b => by match b with | ⟨0, _⟩ => rfl | ⟨1, _⟩ => rfl)
  · rw [dif_neg hk]
    refine (concatenate_pair_apply_right (1 : Fin S10000x256.rank) x0 (val_main_v6 (F := Ideal) x0 x1)
      concatenates_S10000x128_S10000x128_S10000x256_d1 (ValueIdx.ix2 i k) rfl rfl
      (ValueIdx.ix2 i ⟨k.val - 128, by have := k.isLt; omega⟩) (fun b hb => ?_) ?_).trans (agg1_at x0 x1 i _)
    · match b with
      | ⟨0, _⟩ => rfl
      | ⟨1, _⟩ => exact absurd rfl hb
    · show (k.val - 128) + 128 = k.val
      omega

/-- The first layer's output at (i, c). -/
theorem layer1_at (i : Fin 10000) (c : Fin 128) :
    val_main_v10 (F := Ideal) x0 x1 x2 (ValueIdx.ix2 i c) = Cert.SageRef.layer (rd2 x1) (rd2 x2) (rd2 x0) i c := by
  rw [val_main_v10_apply, val_main_v9_apply, val_main_call0_v0_apply, val_main_call0_cst_apply]
  unfold Cert.SageRef.layer
  simp only [Ideal.maximumf_def, Ideal.ofBits_def]
  refine congrArg (max · _) (Finset.sum_congr rfl fun k _ => ?_)
  have e1 : lidx_main_v9 (ValueIdx.ix2 i c) k = ValueIdx.ix2 i k :=
    funext fun a => Fin.ext (by match a with | ⟨0, _⟩ => rfl | ⟨1, _⟩ => rfl)
  have e2 : idx_main_v8 (ridx_main_v9 (ValueIdx.ix2 i c) k) = ValueIdx.ix2 c k :=
    funext fun a => Fin.ext (by match a with | ⟨0, _⟩ => rfl | ⟨1, _⟩ => rfl)
  rw [val_main_v8_apply, e1, e2, cat1_at]

/-! ## The second layer: the same readings, over the first layer's output -/

/-- The divisor of row i again (the program computes it a second time). -/
theorem den2_at (i : Fin 10000) (c : Fin 128) :
    val_main_v16 (F := Ideal) x1 (ValueIdx.ix2 i c) = Cert.SageRef.den (rd2 x1) i := by
  rw [val_main_v16_apply, val_main_v15_apply, val_main_v13_apply, val_main_v12_apply, val_main_v14_apply, val_main_cst_2_apply,
    val_main_cst_1_apply]
  unfold Cert.SageRef.den
  simp only [Ideal.addf_def, Ideal.ofBits_def]
  refine congrArg (· + _) (congrArg (_ + ·) (Finset.sum_congr rfl fun k _ => congrArg x1 ?_))
  exact funext fun a => Fin.ext (by match a with | ⟨0, _⟩ => rfl | ⟨1, _⟩ => rfl)

/-- The neighbours' mean of the first layer's rows at (i, c). -/
theorem agg2_at (i : Fin 10000) (c : Fin 128) :
    val_main_v17 (F := Ideal) x0 x1 x2 (ValueIdx.ix2 i c)
      = Cert.SageRef.agg (rd2 x1) (Cert.SageRef.layer (rd2 x1) (rd2 x2) (rd2 x0)) i c := by
  rw [val_main_v17_apply, val_main_v11_apply, den2_at]
  unfold Cert.SageRef.agg
  simp only [Ideal.hostDivf_def]
  refine congrArg (Ideal.div · _) (Finset.sum_congr rfl fun k _ => ?_)
  have e1 : lidx_main_v11 (ValueIdx.ix2 i c) k = ValueIdx.ix2 i k := funext fun a => Fin.ext (by match a with | ⟨0, _⟩ => rfl | ⟨1, _⟩ => rfl)
  have e2 : ridx_main_v11 (ValueIdx.ix2 i c) k = ValueIdx.ix2 k c := funext fun a => Fin.ext (by match a with | ⟨0, _⟩ => rfl | ⟨1, _⟩ => rfl)
  rw [e1, e2, layer1_at]

/-- The joined row of the second layer at column k. -/
theorem cat2_at (i : Fin 10000) (k : Fin 256) :
    val_main_v18 (F := Ideal) x0 x1 x2 (ValueIdx.ix2 i k)
      = Cert.SageRef.cat (rd2 x1) (Cert.SageRef.layer (rd2 x1) (rd2 x2) (rd2 x0)) i k := by
  unfold val_main_v18 Cert.SageRef.cat
  by_cases hk : k.val < 128
  · rw [dif_pos hk]
    exact (concatenate_pair_apply_left (1 : Fin S10000x256.rank) (val_main_v10 (F := Ideal) x0 x1 x2)
      (val_main_v17 (F := Ideal) x0 x1 x2) concatenates_S10000x128_S10000x128_S10000x256_d1 (ValueIdx.ix2 i k) rfl
      (ValueIdx.ix2 i ⟨k.val, hk⟩) (fun b => by match b with | ⟨0, _⟩ => rfl | ⟨1, _⟩ => rfl)).trans (layer1_at x0 x1 x2 i _)
  · rw [dif_neg hk]
    refine (concatenate_pair_apply_right (1 : Fin S10000x256.rank) (val_main_v10 (F := Ideal) x0 x1 x2)
      (val_main_v17 (F := Ideal) x0 x1 x2) concatenates_S10000x128_S10000x128_S10000x256_d1 (ValueIdx.ix2 i k) rfl rfl
      (ValueIdx.ix2 i ⟨k.val - 128, by have := k.isLt; omega⟩) (fun b hb => ?_) ?_).trans (agg2_at x0 x1 x2 i _)
    · match b with
      | ⟨0, _⟩ => rfl
      | ⟨1, _⟩ => exact absurd rfl hb
    · show (k.val - 128) + 128 = k.val
      omega

/-- The second layer's output at (i, c). -/
theorem layer2_at (i : Fin 10000) (c : Fin 128) :
    val_main_v21 (F := Ideal) x0 x1 x2 x3 (ValueIdx.ix2 i c)
      = Cert.SageRef.layer (rd2 x1) (rd2 x3) (Cert.SageRef.layer (rd2 x1) (rd2 x2) (rd2 x0)) i c := by
  rw [val_main_v21_apply, val_main_v20_apply, val_main_call1_v0_apply, val_main_call1_cst_apply]
  unfold Cert.SageRef.layer
  simp only [Ideal.maximumf_def, Ideal.ofBits_def]
  refine congrArg (max · _) (Finset.sum_congr rfl fun k _ => ?_)
  have e1 : lidx_main_v20 (ValueIdx.ix2 i c) k = ValueIdx.ix2 i k := funext fun a => Fin.ext (by match a with | ⟨0, _⟩ => rfl | ⟨1, _⟩ => rfl)
  have e2 : idx_main_v19 (ridx_main_v20 (ValueIdx.ix2 i c) k) = ValueIdx.ix2 c k := funext fun a => Fin.ext (by match a with | ⟨0, _⟩ => rfl | ⟨1, _⟩ => rfl)
  rw [val_main_v19_apply, e1, e2, cat2_at]
  rfl

/-! ## The logits and the log-softmax -/

/-- The logit of node i, class c: the second layer's row against row c of W3, plus the bias. -/
theorem logits_at (i : Fin 10000) (c : Fin 64) :
    val_main_v26 (F := Ideal) x0 x1 x2 x3 x4 x5 (ValueIdx.ix2 i c) = Cert.SageRef.logits (rd2 x0) (rd2 x1) (rd2 x2) (rd2 x3) (rd2 x4) (rd1 x5) i c := by
  rw [val_main_v26_apply, val_main_v23_apply, val_main_v25_apply, val_main_v24_apply]
  unfold Cert.SageRef.logits
  simp only [Ideal.addf_def]
  refine congrArg₂ (· + ·) (Finset.sum_congr rfl fun k _ => ?_) (congrArg x5 ?_)
  · have e1 : lidx_main_v23 (ValueIdx.ix2 i c) k = ValueIdx.ix2 i k := funext fun a => Fin.ext (by match a with | ⟨0, _⟩ => rfl | ⟨1, _⟩ => rfl)
    have e2 : idx_main_v22 (ridx_main_v23 (ValueIdx.ix2 i c) k) = ValueIdx.ix2 c k := funext fun a => Fin.ext (by match a with | ⟨0, _⟩ => rfl | ⟨1, _⟩ => rfl)
    rw [val_main_v22_apply, e1, e2, layer2_at]
  · exact funext fun a => Fin.ext (by match a with | ⟨0, _⟩ => rfl)

/-- The row maximum of node i's logits: minus infinity against the fold of max, from minus infinity, over the row. -/
theorem rowmax_at (i : Fin 10000) :
    val_main_call2_v2 (F := Ideal) x0 x1 x2 x3 x4 x5 (ValueIdx.ix1 i) = Cert.SageRef.rowmax (Cert.SageRef.logits (rd2 x0) (rd2 x1) (rd2 x2) (rd2 x3) (rd2 x4) (rd1 x5) i) := by
  have hR : S10000x64.Reduces [1] S10000 := by decide
  have hf : ∀ k : Fin 64, val_main_v26 (F := Ideal) x0 x1 x2 x3 x4 x5 (hR.lift (ValueIdx.ix1 i) k) = Cert.SageRef.logits (rd2 x0) (rd2 x1) (rd2 x2) (rd2 x3) (rd2 x4) (rd1 x5) i k := fun k => by
    have e : hR.lift (ValueIdx.ix1 i) k = ValueIdx.ix2 i k := funext fun a => Fin.ext (by match a with | ⟨0, _⟩ => rfl | ⟨1, _⟩ => rfl)
    rw [e, logits_at]
  rw [val_main_call2_v2_apply, val_main_call2_v1_apply, val_main_call2_cst_0_apply]
  unfold Cert.SageRef.rowmax
  simp only [Ideal.maximumf_def, Ideal.ofBits_def]
  refine congrArg (max _ ·) ?_
  unfold val_main_call2_v0
  refine (Host.reduce_eq_fold_single FloatOps.maximumf _ _ reducesTo_S10000x64_S10000_d1 hR h_S_ (ValueIdx.ix1 i)).trans ?_
  show (Finset.univ : Finset (Fin 64)).fold max (Ideal.ofBits .f32 0xFF800000#32)
    (fun k : Fin 64 => val_main_v26 (F := Ideal) x0 x1 x2 x3 x4 x5 (hR.lift (ValueIdx.ix1 i) k)) = _
  rw [funext hf]

/-- The result at (i, c): the log-softmax of node i's logits. -/
theorem out_at (i : Fin 10000) (c : Fin 64) :
    val_main_v27 (F := Ideal) x0 x1 x2 x3 x4 x5 (ValueIdx.ix2 i c)
      = Cert.SageRef.out (rd2 x0) (rd2 x1) (rd2 x2) (rd2 x3) (rd2 x4) (rd1 x5) i c := by
  have hs : ∀ k : Fin 64, val_main_call2_v5 (F := Ideal) x0 x1 x2 x3 x4 x5 (ValueIdx.ix2 i k)
      = Cert.SageRef.logits (rd2 x0) (rd2 x1) (rd2 x2) (rd2 x3) (rd2 x4) (rd1 x5) i k - Cert.SageRef.rowmax (Cert.SageRef.logits (rd2 x0) (rd2 x1) (rd2 x2) (rd2 x3) (rd2 x4) (rd1 x5) i) := fun k => by
    have e : idx_main_call2_v3 (idx_main_call2_v4 (ValueIdx.ix2 i k)) = ValueIdx.ix1 i := funext fun a => Fin.ext (by match a with | ⟨0, _⟩ => rfl)
    rw [val_main_call2_v5_apply, val_main_call2_v4_apply, val_main_call2_v3_apply, logits_at, e, rowmax_at]
    rfl
  rw [val_main_v27_apply, val_main_call2_v10_apply, val_main_call2_v9_apply, val_main_call2_v8_apply, val_main_call2_v7_apply,
    val_main_call2_cst_1_apply, hs]
  unfold Cert.SageRef.out Cert.SageRef.lsm
  simp only [Ideal.subf_def, Ideal.hostUnary_log_def, Ideal.ofBits_def]
  refine congrArg (_ - ·) (congrArg Ideal.log (congrArg (_ + ·) (Finset.sum_congr rfl fun k _ => ?_)))
  have e : idx_main_call2_v7 (idx_main_call2_v8 (idx_main_call2_v10 (ValueIdx.ix2 i c))) k = ValueIdx.ix2 i k := funext fun a => Fin.ext (by match a with | ⟨0, _⟩ => rfl | ⟨1, _⟩ => rfl)
  rw [val_main_call2_v6_apply, e, hs]
  rfl

end Layers

/-! ## The run -/

/-- The program's result buffer at (i, cc) is the specification's function of the six argument arrays. -/
theorem ref_out_at (m : (ℓ : Loc nD τ sig) → Buf (Elt Ideal) ℓ) (c : Dev nD) (i : Fin 10000) (cc : Fin 64) :
    (Cert.ReferenceIdeal.Value.res_out0 (F := Ideal) m c : S10000x64.Idx → EReal) (ValueIdx.ix2 i cc)
      = Cert.SageRef.out (rd2 (m ((c.tc : Thread nD τ).loc main_arg0) : S10000x128.Idx → EReal))
            (rd2 (m ((c.tc : Thread nD τ).loc main_arg1) : S10000x10000.Idx → EReal))
            (rd2 (m ((c.tc : Thread nD τ).loc main_arg2) : S128x256.Idx → EReal))
            (rd2 (m ((c.tc : Thread nD τ).loc main_arg3) : S128x256.Idx → EReal))
            (rd2 (m ((c.tc : Thread nD τ).loc main_arg4) : S64x128.Idx → EReal))
            (rd1 (m ((c.tc : Thread nD τ).loc main_arg5) : S64.Idx → EReal)) i cc :=
  (congrFun (val_main_v27_eq (F := Ideal) m c) (ValueIdx.ix2 i cc)).trans (out_at _ _ _ _ _ _ i cc)

/-- Every weakly fair execution of the reference ends with the result buffer equal, index by index, to the
    specification's function of the launch contents of the six arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v27) : S10000x64.Idx → EReal)
        = (fun j => Cert.SageRef.out (rd2 (m ((c.tc : Thread nD τ).loc main_arg0) : S10000x128.Idx → EReal))
            (rd2 (m ((c.tc : Thread nD τ).loc main_arg1) : S10000x10000.Idx → EReal))
            (rd2 (m ((c.tc : Thread nD τ).loc main_arg2) : S128x256.Idx → EReal))
            (rd2 (m ((c.tc : Thread nD τ).loc main_arg3) : S128x256.Idx → EReal))
            (rd2 (m ((c.tc : Thread nD τ).loc main_arg4) : S64x128.Idx → EReal))
            (rd1 (m ((c.tc : Thread nD τ).loc main_arg5) : S64.Idx → EReal)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨funext fun j => (congrFun (h c).1 j).trans
          ((congrArg (Cert.ReferenceIdeal.Value.res_out0 (F := Ideal) m c : S10000x64.Idx → EReal) (ValueIdx.eq_ix2 j)).trans
            (ref_out_at m c (j 0) (j 1))),
        (h c).2⟩)
    (Cert.ReferenceIdeal.Value.run (F := Ideal) m ρ)

end Cert.ReferenceIdeal.RefValue

end
-- ==== Proof.Bridge.lean ====
/-
  The claim that joins the two programs at the extended reals. From memories that agree on the six argument
  arrays, under the precondition (every entry of every argument is a real number, and no row of the adjacency
  has 1 + its total weight equal to zero), the idealized kernel ends with its result array at the kernel's
  spelling of the two-layer network's log-softmax output, the reference ends with its result array at the
  reference's spelling, and the two spellings are equal entry by entry: the quotient by a nonzero divisor is the
  product with its reciprocal, the 256-column sum splits into its two halves, and on real numbers
  (a - m) - s = a - (m + s). Both runs leave the arguments as they were.
-/
import proofs.«146354_g81527069213097_cont_9to1_m_921_19_alg».proof.Defs
import proofs.«146354_g81527069213097_cont_9to1_m_921_19_alg».proof.Proof.KFinal
import proofs.«146354_g81527069213097_cont_9to1_m_921_19_alg».proof.Proof.Algebra
import proofs.«146354_g81527069213097_cont_9to1_m_921_19_alg».proof.Proof.PreFacts
import proofs.«146354_g81527069213097_cont_9to1_m_921_19_alg».proof.Proof.RefValue

set_option maxRecDepth 16384

noncomputable section

namespace Cert.Proof.Bridge

open Idealize.ShloMosaic Idealize.ShloMosaic.ValueIdx Idealize.ShloMosaic.TcCoe Idealize.SL.Sem
open Cert.PreFacts (rd2 rd1)

theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.KFinal.result m c, Cert.KernelIdeal.KFinal.kernel_run m ρ, ?_⟩
  refine (θ_run Cert.ReferenceIdeal.defs _ _).mono (fun _ h c => ⟨?_, (h c).2⟩) (Cert.ReferenceIdeal.RefValue.run_spec m' ρ')
  obtain ⟨e0, e1, e2, e3, e4, e5⟩ := hagree c
  obtain ⟨hx, hadj, hW1, hW2, hW3, hb3, hden⟩ := Cert.PreFacts.of_pre _ _ _ _ _ _ (hpre c)
  refine (h c).1.trans ?_
  rw [e0, e1, e2, e3, e4, e5]
  funext j
  show _ = Cert.Sage.out _ _ _ _ _ _ _ _
  exact Cert.SageAlg.out_eq _ _ _ _ _ _ hx hadj hW1 hW2 hW3 hb3 hden _ _
end Cert.Proof.Bridge

end
-- ==== Proof.lean ====
/-
  The certificate of a two-layer graph network with a log-softmax head: a fused kernel against its reference.

  The kernel makes two sweeps over the row blocks of the dense adjacency. The first sweep computes each block's
  rows of the first layer — the node's own features through one half of the weight matrix plus the weighted
  mean of the neighbours' features through the other half, then relu — and keeps them, with the reciprocal of
  one plus the row's total weight, in two scratch arrays; the second sweep reads those arrays back, computes the
  second layer, the linear map, the bias and the row-wise log-softmax, and writes the block out.

  The frames (Proof/KB for the program as printed, Proof/KI for its idealization, one text at any float
  instance): the region's invariant carries what the two scratch arrays hold point by point. The value
  (Proof/KValue, Proof/KFinal): after the first sweep the scratch arrays are the first layer and the
  reciprocals at every row, whatever they held before, and the blocks the second sweep writes tile the result.
  The reference (Proof/RefRun, Proof/RefRead, Proof/RefValue): its run, read one element at a time. The law that
  joins them (Proof/Algebra): for real inputs and a row divisor that is not zero, a sum times the reciprocal is
  the quotient, the sum over the joined 256 columns is the sum of its two halves, and
  l - (max + log Σ exp (l - max)) = (l - max) - log Σ exp (l - max); realness and the nonzero divisor come from
  the precondition (Proof/PreFacts). The ideal pass rewrote nothing, so the idealization is preserved trivially.
-/
import proofs.«146354_g81527069213097_cont_9to1_m_921_19_alg».proof.Defs
import proofs.«146354_g81527069213097_cont_9to1_m_921_19_alg».proof.Proof.Gen.Kernel
import proofs.«146354_g81527069213097_cont_9to1_m_921_19_alg».proof.Proof.Gen.KernelIdeal
import proofs.«146354_g81527069213097_cont_9to1_m_921_19_alg».proof.Proof.Gen.ReferenceIdeal
import proofs.«146354_g81527069213097_cont_9to1_m_921_19_alg».proof.Proof.Gen.Pre_finite_inputs
import proofs.«146354_g81527069213097_cont_9to1_m_921_19_alg».proof.Proof.KB.Frame
import proofs.«146354_g81527069213097_cont_9to1_m_921_19_alg».proof.Proof.KI.Frame
import proofs.«146354_g81527069213097_cont_9to1_m_921_19_alg».proof.Proof.RefRun
import proofs.«146354_g81527069213097_cont_9to1_m_921_19_alg».proof.Proof.Bridge
import Idealize.ShloMosaic.Adequacy
import Idealize.ShloMosaic.Init

noncomputable section

namespace Cert.Proof

open Idealize.ShloMosaic Idealize.SL.Sem

/-- The program as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Bridge.algebraic⟩

end Cert.Proof

end
